-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x512 : Shape := ⟨2, ![16384, 512]⟩
abbrev S16384x256 : Shape := ⟨2, ![16384, 256]⟩
abbrev S64x512 : Shape := ⟨2, ![64, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x256 : Shape := ⟨2, ![256, 256]⟩
abbrev S256x512 : Shape := ⟨2, ![256, 512]⟩
abbrev S512x64 : Shape := ⟨2, ![512, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x256 : S_.BroadcastsInDim S16384x256 (![] : Fin 0 → Fin S16384x256.rank)
  reducesTo_S16384x256_S_d0_1 : S16384x256.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_arg21 : FVec F S64 .f32) (main_v98 : IVec S_ 1) (main_v101 : IVec S512x64 1) (main_c_39 : IVec S_ 1) : IVec S_ 1 :=
  let main_v102 : IVec S_ 1 := (fun x v => Host.reduce IntOp.andi x v reducesTo_S512x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  main_v108

def fn_part5 {F : FTy → Type} [FloatOps F] (main_arg18 : FVec F S512x512 .f32) (main_arg19 : FVec F S512 .f32) (main_arg20 : FVec F S512x64 .f32) (main_arg21 : FVec F S64 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x512 .f32 := Host.absf main_arg18
  let main_cst_34 : FVec F S_ .f32 := constant S_ .f32 0x7F800000#32
  let main_v90 : FVec F S512x512 .f32 := broadcastInDim S512x512 ![] bcast_S_S512x512 main_cst_34
  let main_v91 : IVec S512x512 1 := cmpf .olt main_v89 main_v90
  let main_c_35 : IVec S_ 1 := constantI S_ 1 1#1
  let main_v92 : IVec S_ 1 := (fun x v => Host.reduce IntOp.andi x v reducesTo_S512x512_S_d0_1 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512x64 .f32 := Host.absf main_arg20
  let main_cst_38 : FVec F S_ .f32 := constant S_ .f32 0x7F800000#32
  let main_v100 : FVec F S512x64 .f32 := broadcastInDim S512x64 ![] bcast_S_S512x64 main_cst_38
  let main_v101 : IVec S512x64 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S256x512 .f32) (main_arg15 : FVec F S512 .f32) (main_arg16 : FVec F S512x512 .f32) (main_arg17 : FVec F S512 .f32) (main_arg18 : FVec F S512x512 .f32) (main_arg19 : FVec F S512 .f32) (main_arg20 : FVec F S512x64 .f32) (main_arg21 : FVec F S64 .f32) (main_v63 : IVec S_ 1) (main_v67 : IVec S_ 1) : IVec S_ 1 :=
  let main_v68 : IVec S_ 1 := andi main_v63 main_v67
  let main_v69 : FVec F S256x512 .f32 := Host.absf main_arg14
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S256 .f32) (main_arg12 : FVec F S256x256 .f32) (main_arg13 : FVec F S256 .f32) (main_arg14 : FVec F S256x512 .f32) (main_arg15 : FVec F S512 .f32) (main_arg16 : FVec F S512x512 .f32) (main_arg17 : FVec F S512 .f32) (main_arg18 : FVec F S512x512 .f32) (main_arg19 : FVec F S512 .f32) (main_arg20 : FVec F S512x64 .f32) (main_arg21 : FVec F S64 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S512 .f32) (main_arg8 : FVec F S512x512 .f32) (main_arg9 : FVec F S512 .f32) (main_arg10 : FVec F S512x256 .f32) (main_arg11 : FVec F S256 .f32) (main_arg12 : FVec F S256x256 .f32) (main_arg13 : FVec F S256 .f32) (main_arg14 : FVec F S256x512 .f32) (main_arg15 : FVec F S512 .f32) (main_arg16 : FVec F S512x512 .f32) (main_arg17 : FVec F S512 .f32) (main_arg18 : FVec F S512x512 .f32) (main_arg19 : FVec F S512 .f32) (main_arg20 : FVec F S512x64 .f32) (main_arg21 : FVec F S64 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x256 .f32 := Host.absf main_arg10
  let main_cst_18 : FVec F S_ .f32 := constant S_ .f32 0x7F800000#32
  let main_v50 : FVec F S512x256 .f32 := broadcastInDim S512x256 ![] bcast_S_S512x256 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S64x512 .f32) (main_arg5 : FVec F S512 .f32) (main_arg6 : FVec F S512x512 .f32) (main_arg7 : FVec F S512 .f32) (main_arg8 : FVec F S512x512 .f32) (main_arg9 : FVec F S512 .f32) (main_arg10 : FVec F S512x256 .f32) (main_arg11 : FVec F S256 .f32) (main_arg12 : FVec F S256x256 .f32) (main_arg13 : FVec F S256 .f32) (main_arg14 : FVec F S256x512 .f32) (main_arg15 : FVec F S512 .f32) (main_arg16 : FVec F S512x512 .f32) (main_arg17 : FVec F S512 .f32) (main_arg18 : FVec F S512x512 .f32) (main_arg19 : FVec F S512 .f32) (main_arg20 : FVec F S512x64 .f32) (main_arg21 : FVec F S64 .f32) (main_v13 : IVec S_ 1) (main_v16 : IVec S16384x256 1) : IVec S_ 1 :=
  let main_c_5 : IVec S_ 1 := constantI S_ 1 1#1
  let main_v17 : IVec S_ 1 := (fun x v => Host.reduce IntOp.andi x v reducesTo_S16384x256_S_d0_1 h_S_) main_v16 main_c_5
  let main_v18 : IVec S_ 1 := andi main_v13 main_v17
  let main_v19 : FVec F S64x512 .f32 := Host.absf main_arg4
  let main_cst_6 : FVec F S_ .f32 := constant S_ .f32 0x7F800000#32
  let main_v20 : FVec F S64x512 .f32 := broadcastInDim S64x512 ![] bcast_S_S64x512 main_cst_6
  let main_v21 : IVec S64x512 1 := cmpf .olt main_v19 main_v20
  let main_c_7 : IVec S_ 1 := constantI S_ 1 1#1
  let main_v22 : IVec S_ 1 := (fun x v => Host.reduce IntOp.andi x v reducesTo_S64x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S16384x64 .f32) (main_arg1 : FVec F S16384x512 .f32) (main_arg2 : FVec F S16384x512 .f32) (main_arg3 : FVec F S16384x256 .f32) (main_arg4 : FVec F S64x512 .f32) (main_arg5 : FVec F S512 .f32) (main_arg6 : FVec F S512x512 .f32) (main_arg7 : FVec F S512 .f32) (main_arg8 : FVec F S512x512 .f32) (main_arg9 : FVec F S512 .f32) (main_arg10 : FVec F S512x256 .f32) (main_arg11 : FVec F S256 .f32) (main_arg12 : FVec F S256x256 .f32) (main_arg13 : FVec F S256 .f32) (main_arg14 : FVec F S256x512 .f32) (main_arg15 : FVec F S512 .f32) (main_arg16 : FVec F S512x512 .f32) (main_arg17 : FVec F S512 .f32) (main_arg18 : FVec F S512x512 .f32) (main_arg19 : FVec F S512 .f32) (main_arg20 : FVec F S512x64 .f32) (main_arg21 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x256 .f32 := Host.absf main_arg3
  let main_cst_4 : FVec F S_ .f32 := constant S_ .f32 0x7F800000#32
  let main_v15 : FVec F S16384x256 .f32 := broadcastInDim S16384x256 ![] bcast_S_S16384x256 main_cst_4
  let main_v16 : IVec S16384x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16384x64 : Shape := ⟨2, ![16384, 64]⟩
abbrev S16384x512 : Shape := ⟨2, ![16384, 512]⟩
abbrev S16384x256 : Shape := ⟨2, ![16384, 256]⟩
abbrev S64x512 : Shape := ⟨2, ![64, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x256 : Shape := ⟨2, ![256, 256]⟩
abbrev S256x512 : Shape := ⟨2, ![256, 512]⟩
abbrev S512x64 : Shape := ⟨2, ![512, 64]⟩
abbrev S64 : Shape := ⟨1, ![64]⟩
abbrev S1x512 : Shape := ⟨2, ![1, 512]⟩
abbrev S1x256 : Shape := ⟨2, ![1, 256]⟩
abbrev S1x64 : Shape := ⟨2, ![1, 64]⟩
abbrev S1024x64 : Shape := ⟨2, ![1024, 64]⟩
abbrev S1024x512 : Shape := ⟨2, ![1024, 512]⟩
abbrev S1024x256 : Shape := ⟨2, ![1024, 256]⟩

abbrev nBuf : Space → Nat
  | .hbm => 44
  | .vmem => 29
  | .smem => 0
  | _ => 0

abbrev bufTy : (tb : Table) → Fin (tcTables nBuf tb) → BufTy
  | .hbm, ⟨0, _⟩ => ⟨S16384x64, .f32⟩
  | .hbm, ⟨1, _⟩ => ⟨S16384x512, .f32⟩
  | .hbm, ⟨2, _⟩ => ⟨S16384x512, .f32⟩
  | .hbm, ⟨3, _⟩ => ⟨S16384x256, .f32⟩
  | .hbm, ⟨4, _⟩ => ⟨S64x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x512, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S512x64, .f32⟩
  | .hbm, ⟨21, _⟩ => ⟨S64, .f32⟩
  | .hbm, ⟨22, _⟩ => ⟨S512x512, .bf16⟩
  | .hbm, ⟨23, _⟩ => ⟨S256x512, .bf16⟩
  | .hbm, ⟨24, _⟩ => ⟨S512x512, .bf16⟩
  | .hbm, ⟨25, _⟩ => ⟨S256x256, .bf16⟩
  | .hbm, ⟨26, _⟩ => ⟨S512x256, .bf16⟩
  | .hbm, ⟨27, _⟩ => ⟨S512x512, .bf16⟩
  | .hbm, ⟨28, _⟩ => ⟨S512x512, .bf16⟩
  | .hbm, ⟨29, _⟩ => ⟨S64x512, .bf16⟩
  | .hbm, ⟨30, _⟩ => ⟨S512x64, .bf16⟩
  | .hbm, ⟨31, _⟩ => ⟨S512, .f32⟩
  | .hbm, ⟨32, _⟩ => ⟨S512, .f32⟩
  | .hbm, ⟨33, _⟩ => ⟨S1x512, .f32⟩
  | .hbm, ⟨34, _⟩ => ⟨S256, .f32⟩
  | .hbm, ⟨35, _⟩ => ⟨S1x256, .f32⟩
  | .hbm, ⟨36, _⟩ => ⟨S512, .f32⟩
  | .hbm, ⟨37, _⟩ => ⟨S512, .f32⟩
  | .hbm, ⟨38, _⟩ => ⟨S1x512, .f32⟩
  | .hbm, ⟨39, _⟩ => ⟨S1x64, .f32⟩
  | .hbm, ⟨40, _⟩ => ⟨S16384x64, .f32⟩
  | .hbm, ⟨41, _⟩ => ⟨S16384x512, .f32⟩
  | .hbm, ⟨42, _⟩ => ⟨S16384x512, .f32⟩
  | .hbm, ⟨43, _⟩ => ⟨S16384x256, .f32⟩
  | .local _ .vmem, ⟨0, _⟩ => ⟨S1024x64, .f32⟩
  | .local _ .vmem, ⟨1, _⟩ => ⟨S1024x64, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x256, .f32⟩
  | .local _ .vmem, ⟨7, _⟩ => ⟨S1024x256, .f32⟩
  | .local _ .vmem, ⟨8, _⟩ => ⟨S512x512, .bf16⟩
  | .local _ .vmem, ⟨9, _⟩ => ⟨S256x512, .bf16⟩
  | .local _ .vmem, ⟨10, _⟩ => ⟨S512x512, .bf16⟩
  | .local _ .vmem, ⟨11, _⟩ => ⟨S256x256, .bf16⟩
  | .local _ .vmem, ⟨12, _⟩ => ⟨S512x256, .bf16⟩
  | .local _ .vmem, ⟨13, _⟩ => ⟨S512x512, .bf16⟩
  | .local _ .vmem, ⟨14, _⟩ => ⟨S512x512, .bf16⟩
  | .local _ .vmem, ⟨15, _⟩ => ⟨S64x512, .bf16⟩
  | .local _ .vmem, ⟨16, _⟩ => ⟨S512x64, .bf16⟩
  | .local _ .vmem, ⟨17, _⟩ => ⟨S1x512, .f32⟩
  | .local _ .vmem, ⟨18, _⟩ => ⟨S1x256, .f32⟩
  | .local _ .vmem, ⟨19, _⟩ => ⟨S1x512, .f32⟩
  | .local _ .vmem, ⟨20, _⟩ => ⟨S1x64, .f32⟩
  | .local _ .vmem, ⟨21, _⟩ => ⟨S1024x64, .f32⟩
  | .local _ .vmem, ⟨22, _⟩ => ⟨S1024x64, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x256, .f32⟩
  | .local _ .vmem, ⟨28, _⟩ => ⟨S1024x256, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v18_2 : Ref sig .tc := ⟨.hbm, 42, rfl⟩
abbrev main_v18_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bitsLt_bf16_f32 : FTy.bits .bf16 < FTy.bits .f32
  shapeCasts_S512_S1x512 : S512.ShapeCasts S1x512
  shapeCasts_S256_S1x256 : S256.ShapeCasts S1x256
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  inb_S1024x512_S1024x512_0_0 : ∀ a, (![0, 0] : Fin 2 → Nat) a + S1024x512.size a ≤ S1024x512.size a
  h_S1024x512 : 0 < S1024x512.numel
  inb_S1024x256_S1024x256_0_0 : ∀ a, (![0, 0] : Fin 2 → Nat) a + S1024x256.size a ≤ S1024x256.size a
  h_S1024x256 : 0 < S1024x256.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S1024x512_S512x512_S1024x512_1_0_0_1_n_n_wf : DotDims.WF S1024x512 S512x512 S1024x512 [1] [0] [0] [1] [] []
  dot_S1024x256_S256x512_S1024x512_1_0_0_1_n_n_wf : DotDims.WF S1024x256 S256x512 S1024x512 [1] [0] [0] [1] [] []
  dot_S1024x256_S256x256_S1024x256_1_0_0_1_n_n_wf : DotDims.WF S1024x256 S256x256 S1024x256 [1] [0] [0] [1] [] []
  dot_S1024x512_S512x256_S1024x256_1_0_0_1_n_n_wf : DotDims.WF S1024x512 S512x256 S1024x256 [1] [0] [0] [1] [] []
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .bf16 = 32 ∨ (Rect.block (s := S256x512) S256x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .bf16 = 32 ∨ (Rect.block (s := S512x256) S512x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x512.size a ≤ S64x512.size a
  hwx0_11 : ∀ i : grid0.Coords, EltTy.bits .bf16 = 32 ∨ (Rect.block (s := S64x512) S64x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x64.size a ≤ S512x64.size a
  hwx0_12 : ∀ i : grid0.Coords, EltTy.bits .bf16 = 32 ∨ (Rect.block (s := S512x64) S512x64.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x512.size a ≤ S1x512.size a
  hwx0_15 : ∀ i : grid0.Coords, EltTy.bits .f32 = 32 ∨ (Rect.block (s := S1x512) S1x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x64.size a ≤ S16384x64.size a
  hwx0_17 : ∀ i : grid0.Coords, EltTy.bits .f32 = 32 ∨ (Rect.block (s := S16384x64) S1024x64.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1024x512.size a ≤ S16384x512.size a
  hwx0_18 : ∀ i : grid0.Coords, EltTy.bits .f32 = 32 ∨ (Rect.block (s := S16384x512) S1024x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x512.size a ≤ S16384x512.size a
  hwx0_19 : ∀ i : grid0.Coords, EltTy.bits .f32 = 32 ∨ (Rect.block (s := S16384x512) S1024x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x256.size a ≤ S16384x256.size a
  hwx0_20 : ∀ i : grid0.Coords, EltTy.bits .f32 = 32 ∨ (Rect.block (s := S16384x256) S1024x256.size (cc0_transform_20 i) (hinb0_20 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S64x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S512x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v16) S1x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v17) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v18_0) S1024x64.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v18_1) S1024x512.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v18_2) S1024x512.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v18_3) S1024x256.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x512 : Shape := ⟨2, ![16384, 512]⟩
abbrev S16384x256 : Shape := ⟨2, ![16384, 256]⟩
abbrev S64x512 : Shape := ⟨2, ![64, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x256 : Shape := ⟨2, ![256, 256]⟩
abbrev S256x512 : Shape := ⟨2, ![256, 512]⟩
abbrev S512x64 : Shape := ⟨2, ![512, 64]⟩
abbrev S64 : Shape := ⟨1, ![64]⟩
abbrev S1x512 : Shape := ⟨2, ![1, 512]⟩
abbrev S_ : Shape := ⟨0, ![]⟩
abbrev S1x256 : Shape := ⟨2, ![1, 256]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x512, .f32⟩
  | .hbm, ⟨2, _⟩ => ⟨S16384x512, .f32⟩
  | .hbm, ⟨3, _⟩ => ⟨S16384x256, .f32⟩
  | .hbm, ⟨4, _⟩ => ⟨S64x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x512, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S512x64, .f32⟩
  | .hbm, ⟨21, _⟩ => ⟨S64, .f32⟩
  | .hbm, ⟨22, _⟩ => ⟨S16384x512, .f32⟩
  | .hbm, ⟨23, _⟩ => ⟨S1x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S1x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x256, .f32⟩
  | .hbm, ⟨44, _⟩ => ⟨S1x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S1x256, .f32⟩
  | .hbm, ⟨49, _⟩ => ⟨S16384x256, .f32⟩
  | .hbm, ⟨50, _⟩ => ⟨S16384x256, .f32⟩
  | .hbm, ⟨51, _⟩ => ⟨S16384x256, .f32⟩
  | .hbm, ⟨52, _⟩ => ⟨S_, .f32⟩
  | .hbm, ⟨53, _⟩ => ⟨S16384x256, .f32⟩
  | .hbm, ⟨54, _⟩ => ⟨S16384x256, .f32⟩
  | .hbm, ⟨55, _⟩ => ⟨S_, .f32⟩
  | .hbm, ⟨56, _⟩ => ⟨S16384x256, .f32⟩
  | .hbm, ⟨57, _⟩ => ⟨S16384x256, .f32⟩
  | .hbm, ⟨58, _⟩ => ⟨S16384x256, .f32⟩
  | .hbm, ⟨59, _⟩ => ⟨S16384x512, .f32⟩
  | .hbm, ⟨60, _⟩ => ⟨S1x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S1x512, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S16384x512, .f32⟩
  | .hbm, ⟨69, _⟩ => ⟨S1x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S_, .f32⟩
  | .hbm, ⟨74, _⟩ => ⟨S16384x512, .f32⟩
  | .hbm, ⟨75, _⟩ => ⟨S16384x512, .f32⟩
  | .hbm, ⟨76, _⟩ => ⟨S_, .f32⟩
  | .hbm, ⟨77, _⟩ => ⟨S16384x512, .f32⟩
  | .hbm, ⟨78, _⟩ => ⟨S16384x512, .f32⟩
  | .hbm, ⟨79, _⟩ => ⟨S16384x512, .f32⟩
  | .hbm, ⟨80, _⟩ => ⟨S16384x64, .f32⟩
  | .hbm, ⟨81, _⟩ => ⟨S1x64, .f32⟩
  | .hbm, ⟨82, _⟩ => ⟨S16384x64, .f32⟩
  | .hbm, ⟨83, _⟩ => ⟨S16384x64, .f32⟩
  | .hbm, ⟨84, _⟩ => ⟨S16384x64, .f32⟩
  | .hbm, ⟨85, _⟩ => ⟨S16384x512, .f32⟩
  | .hbm, ⟨86, _⟩ => ⟨S16384x512, .f32⟩
  | .hbm, ⟨87, _⟩ => ⟨S16384x256, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_cst_0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_1 : Ref sig .tc := ⟨.hbm, 52, rfl⟩
abbrev main_v28 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_3 : Ref sig .tc := ⟨.hbm, 73, rfl⟩
abbrev main_v47 : Ref sig .tc := ⟨.hbm, 74, rfl⟩
abbrev main_v48 : Ref sig .tc := ⟨.hbm, 75, rfl⟩
abbrev main_cst_4 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x512_S512x512_S16384x512_1_0_0_1_n_n_wf : DotDims.WF S16384x512 S512x512 S16384x512 [1] [0] [0] [1] [] []
  dot_S16384x256_S256x512_S16384x512_1_0_0_1_n_n_wf : DotDims.WF S16384x256 S256x512 S16384x512 [1] [0] [0] [1] [] []
  dot_S16384x256_S256x256_S16384x256_1_0_0_1_n_n_wf : DotDims.WF S16384x256 S256x256 S16384x256 [1] [0] [0] [1] [] []
  dot_S16384x512_S512x256_S16384x256_1_0_0_1_n_n_wf : DotDims.WF S16384x512 S512x256 S16384x256 [1] [0] [0] [1] [] []
  dot_S16384x64_S64x512_S16384x512_1_0_0_1_n_n_wf : DotDims.WF S16384x64 S64x512 S16384x512 [1] [0] [0] [1] [] []
  dot_S16384x512_S512x64_S16384x64_1_0_0_1_n_n_wf : DotDims.WF S16384x512 S512x64 S16384x64 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x64_S64x512_S16384x512_1_0_0_1_n_n : DotDims S16384x64 S64x512 S16384x512 where
  lhsContracting := [1]
  rhsContracting := [0]
  lhsNonContracting := [0]
  rhsNonContracting := [1]
  lhsBatch := []
  rhsBatch := []
  wf := dot_S16384x64_S64x512_S16384x512_1_0_0_1_n_n_wf
def dot_S16384x512_S512x64_S16384x64_1_0_0_1_n_n : DotDims S16384x512 S512x64 S16384x64 where
  lhsContracting := [1]
  rhsContracting := [0]
  lhsNonContracting := [0]
  rhsNonContracting := [1]
  lhsBatch := []
  rhsBatch := []
  wf := dot_S16384x512_S512x64_S16384x64_1_0_0_1_n_n_wf

class Facts : Prop extends Facts₀ where

variable [Facts]
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibLeakyCell.lean ====
/-
  A leaky recurrent cell, as vector operations compute it on a strip of rows and as the host computes it on the
  whole batch, read at an index, over the extended reals.

  One affine map takes a row x(r, ·) of an M × K matrix to Σ_k x(r, k) · w(k, q) + b(q) (aff). A leaky update of a
  state entry s with the summed drive u is tanh (c · s + u / d) (leak).

  * On a strip of m rows the vector unit forms each product as a tpu.matmul into the zero accumulator, the
    activations passed through a change of float format (the identity on extended reals) and the weights through a
    re-shape to their own shape (the identity), adds the products, and adds ONE bias row [1, N] spread over the m
    rows: blockDot_apply, biasRow_apply, and the whole cells stripOut_apply (tanh of one product plus its bias),
    stripCell2_apply and stripCell3_apply (a leaky update driven by two or three products and one bias row).
  * The host forms each affine map as a dot_general plus its own bias, the bias [N] spread along axis 1 to [1, N]
    and then over the M rows, and adds the affine maps: hostAff_apply, hostOut_apply, hostCell2_apply,
    hostCell3_apply.
  * The two groupings of the drive agree in any commutative monoid: regroup2, regroup3. No finiteness is needed.
-/
import Idealize.ShloMosaic.Lib.ValueIdx
import Idealize.ShloMosaic.Lib.ValueLayout
import Idealize.ShloMosaic.Lib.Pipeline.Value
import Idealize.ShloMosaic.PureOps.Ideal.Laws
import proofs.«177688_j4715874091405_2_alg».proof.Proof.LibPlainDot

noncomputable section

open scoped BigOperators

namespace Idealize.ShloMosaic.LeakyCell

open Idealize.ShloMosaic Idealize.ShloMosaic.ValueIdx

variable {m M K K₁ K₂ K₃ N : Nat}

/-! ## The two formulas -/

/-- One affine map at (r, q): Σ_k x(r, k) · w(k, q) + b(q). -/
def aff (x : (⟨2, ![M, K]⟩ : Shape).Idx → EReal) (w : (⟨2, ![K, N]⟩ : Shape).Idx → EReal)
    (b : (⟨1, ![N]⟩ : Shape).Idx → EReal) (r : Fin M) (q : Fin N) : EReal :=
  (∑ k : Fin K, x (ix2 r k) * w (ix2 k q)) + b (ix1 q)

/-- The leaky update of a state entry s by the drive u: tanh (c · s + u / d). -/
def leak (c d s u : EReal) : EReal := Ideal.tanh (c * s + Ideal.div u d)

/-! ## Regrouping a sum of affine maps -/

/-- Two products and two biases: products first, biases last, or pair by pair. -/
theorem regroup2 (A B a b : EReal) : (A + B) + (a + b) = (A + a) + (B + b) := add_add_add_comm A B a b

/-- Three products and three biases: products first, biases last, or pair by pair. -/
theorem regroup3 (A B C a b c : EReal) : ((A + B) + C) + ((a + b) + c) = ((A + a) + (B + b)) + (C + c) := by
  rw [add_add_add_comm (A + B) C (a + b) c, add_add_add_comm A B a b]

/-! ## On a strip of rows, by the vector unit -/

/-- A strip's product with a weight matrix, at (p, q): the sum over k of the strip's row p against column q. -/
theorem blockDot_apply (prec : Option ContractPrecision) (a : FVec Ideal ⟨2, ![m, K]⟩ .f32)
    (w : FVec Ideal ⟨2, ![K, N]⟩ .bf16) (ha : FTy.bf16.bits < FTy.f32.bits)
    (hs : (⟨2, ![K, N]⟩ : Shape).ShapeCasts ⟨2, ![K, N]⟩) (p : Fin m) (q : Fin N) :
    matmul (DotDims.plain m K N) prec (truncf .bf16 a ha) (shapeCast ⟨2, ![K, N]⟩ w hs)
        (constant ⟨2, ![m, N]⟩ .f32 0x00000000#32) (ix2 p q)
      = ∑ k : Fin K, a (ix2 p k) * w (ix2 k q) := by
  rw [shapeCast_self]
  exact PlainDot.matmul_zero_apply prec (truncf .bf16 a ha) w p q

/-- A bias row [1, N], re-shaped to its own shape and spread over the m rows, at (p, q): the row's entry q. -/
theorem biasRow_apply (rb : FVec Ideal ⟨2, ![1, N]⟩ .f32) (hr : (⟨2, ![1, N]⟩ : Shape).ShapeCasts ⟨2, ![1, N]⟩)
    (hb : (⟨2, ![1, N]⟩ : Shape).Broadcasts ⟨2, ![m, N]⟩) (p : Fin m) (q : Fin N) :
    broadcastTo ⟨2, ![m, N]⟩ (shapeCast ⟨2, ![1, N]⟩ rb hr) hb (ix2 p q) = rb (ix2 (0 : Fin 1) q) := by
  rw [shapeCast_self]
  exact broadcastTo_1b_ab_apply rb hb p q

/-- tanh of a sum, entry by entry. -/
theorem tanhSum_apply {s : Shape} (u v : FVec Ideal s .f32) (i : s.Idx) :
    tanh (addf u v) i = Ideal.tanh (u i + v i) := rfl

/-- A leaky update, entry by entry. -/
theorem leak_apply {s : Shape} (c d : Ideal .f32) (x u : FVec Ideal s .f32) (i : s.Idx) :
    tanh (addf (mulf (broadcast s c) x) (divf u (broadcast s d))) i = leak c d (x i) (u i) := rfl

/-- The output layer on a strip: tanh of one product plus its bias row. -/
theorem stripOut_apply (a : FVec Ideal ⟨2, ![m, K]⟩ .f32) (w : FVec Ideal ⟨2, ![K, N]⟩ .bf16)
    (rb : FVec Ideal ⟨2, ![1, N]⟩ .f32) (ha : FTy.bf16.bits < FTy.f32.bits)
    (hs : (⟨2, ![K, N]⟩ : Shape).ShapeCasts ⟨2, ![K, N]⟩)
    (hr : (⟨2, ![1, N]⟩ : Shape).ShapeCasts ⟨2, ![1, N]⟩) (hb : (⟨2, ![1, N]⟩ : Shape).Broadcasts ⟨2, ![m, N]⟩)
    (p : Fin m) (q : Fin N) :
    tanh (addf (matmul (DotDims.plain m K N) none (truncf .bf16 a ha) (shapeCast ⟨2, ![K, N]⟩ w hs)
            (constant ⟨2, ![m, N]⟩ .f32 0x00000000#32))
          (broadcastTo ⟨2, ![m, N]⟩ (shapeCast ⟨2, ![1, N]⟩ rb hr) hb)) (ix2 p q)
      = Ideal.tanh ((∑ k : Fin K, a (ix2 p k) * w (ix2 k q)) + rb (ix2 (0 : Fin 1) q)) := by
  rw [tanhSum_apply, blockDot_apply, biasRow_apply]

/-- A leaky update on a strip driven by two products and one bias row. -/
theorem stripCell2_apply (c d : Ideal .f32) (x : FVec Ideal ⟨2, ![m, N]⟩ .f32)
    (a₁ : FVec Ideal ⟨2, ![m, K₁]⟩ .f32) (w₁ : FVec Ideal ⟨2, ![K₁, N]⟩ .bf16)
    (a₂ : FVec Ideal ⟨2, ![m, K₂]⟩ .f32) (w₂ : FVec Ideal ⟨2, ![K₂, N]⟩ .bf16)
    (rb : FVec Ideal ⟨2, ![1, N]⟩ .f32) (ha : FTy.bf16.bits < FTy.f32.bits)
    (h₁ : (⟨2, ![K₁, N]⟩ : Shape).ShapeCasts ⟨2, ![K₁, N]⟩) (h₂ : (⟨2, ![K₂, N]⟩ : Shape).ShapeCasts ⟨2, ![K₂, N]⟩)
    (hr : (⟨2, ![1, N]⟩ : Shape).ShapeCasts ⟨2, ![1, N]⟩) (hb : (⟨2, ![1, N]⟩ : Shape).Broadcasts ⟨2, ![m, N]⟩)
    (p : Fin m) (q : Fin N) :
    tanh (addf (mulf (broadcast ⟨2, ![m, N]⟩ c) x)
        (divf (addf (addf
              (matmul (DotDims.plain m K₁ N) none (truncf .bf16 a₁ ha) (shapeCast ⟨2, ![K₁, N]⟩ w₁ h₁)
                (constant ⟨2, ![m, N]⟩ .f32 0x00000000#32))
              (matmul (DotDims.plain m K₂ N) none (truncf .bf16 a₂ ha) (shapeCast ⟨2, ![K₂, N]⟩ w₂ h₂)
                (constant ⟨2, ![m, N]⟩ .f32 0x00000000#32)))
            (broadcastTo ⟨2, ![m, N]⟩ (shapeCast ⟨2, ![1, N]⟩ rb hr) hb))
          (broadcast ⟨2, ![m, N]⟩ d))) (ix2 p q)
      = leak c d (x (ix2 p q))
          (((∑ k : Fin K₁, a₁ (ix2 p k) * w₁ (ix2 k q)) + ∑ k : Fin K₂, a₂ (ix2 p k) * w₂ (ix2 k q))
            + rb (ix2 (0 : Fin 1) q)) := by
  rw [leak_apply, addf_apply, addf_apply, blockDot_apply, blockDot_apply, biasRow_apply]

/-- A leaky update on a strip driven by three products and one bias row. -/
theorem stripCell3_apply (c d : Ideal .f32) (x : FVec Ideal ⟨2, ![m, N]⟩ .f32)
    (a₁ : FVec Ideal ⟨2, ![m, K₁]⟩ .f32) (w₁ : FVec Ideal ⟨2, ![K₁, N]⟩ .bf16)
    (a₂ : FVec Ideal ⟨2, ![m, K₂]⟩ .f32) (w₂ : FVec Ideal ⟨2, ![K₂, N]⟩ .bf16)
    (a₃ : FVec Ideal ⟨2, ![m, K₃]⟩ .f32) (w₃ : FVec Ideal ⟨2, ![K₃, N]⟩ .bf16)
    (rb : FVec Ideal ⟨2, ![1, N]⟩ .f32) (ha : FTy.bf16.bits < FTy.f32.bits)
    (h₁ : (⟨2, ![K₁, N]⟩ : Shape).ShapeCasts ⟨2, ![K₁, N]⟩) (h₂ : (⟨2, ![K₂, N]⟩ : Shape).ShapeCasts ⟨2, ![K₂, N]⟩)
    (h₃ : (⟨2, ![K₃, N]⟩ : Shape).ShapeCasts ⟨2, ![K₃, N]⟩)
    (hr : (⟨2, ![1, N]⟩ : Shape).ShapeCasts ⟨2, ![1, N]⟩) (hb : (⟨2, ![1, N]⟩ : Shape).Broadcasts ⟨2, ![m, N]⟩)
    (p : Fin m) (q : Fin N) :
    tanh (addf (mulf (broadcast ⟨2, ![m, N]⟩ c) x)
        (divf (addf (addf (addf
              (matmul (DotDims.plain m K₁ N) none (truncf .bf16 a₁ ha) (shapeCast ⟨2, ![K₁, N]⟩ w₁ h₁)
                (constant ⟨2, ![m, N]⟩ .f32 0x00000000#32))
              (matmul (DotDims.plain m K₂ N) none (truncf .bf16 a₂ ha) (shapeCast ⟨2, ![K₂, N]⟩ w₂ h₂)
                (constant ⟨2, ![m, N]⟩ .f32 0x00000000#32)))
              (matmul (DotDims.plain m K₃ N) none (truncf .bf16 a₃ ha) (shapeCast ⟨2, ![K₃, N]⟩ w₃ h₃)
                (constant ⟨2, ![m, N]⟩ .f32 0x00000000#32)))
            (broadcastTo ⟨2, ![m, N]⟩ (shapeCast ⟨2, ![1, N]⟩ rb hr) hb))
          (broadcast ⟨2, ![m, N]⟩ d))) (ix2 p q)
      = leak c d (x (ix2 p q))
          ((((∑ k : Fin K₁, a₁ (ix2 p k) * w₁ (ix2 k q)) + ∑ k : Fin K₂, a₂ (ix2 p k) * w₂ (ix2 k q))
              + ∑ k : Fin K₃, a₃ (ix2 p k) * w₃ (ix2 k q))
            + rb (ix2 (0 : Fin 1) q)) := by
  rw [leak_apply, addf_apply, addf_apply, addf_apply, blockDot_apply, blockDot_apply, blockDot_apply, biasRow_apply]

/-! ## On the whole batch, by the host -/

/-- A bias [N] spread along axis 1 to one row [1, N] and then over the M rows, at (r, q): the bias's entry q. -/
theorem hostBias_apply (b : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1]) (r : Fin M) (q : Fin N) :
    broadcastInDim ⟨2, ![M, N]⟩ ![0, 1] h₂ (broadcastInDim ⟨2, ![1, N]⟩ ![1] h₁ b) (ix2 r q) = b (ix1 q) := by
  refine (broadcastInDim_apply ![0, 1] h₂ _ (ix2 r q) (ix2 (0 : Fin 1) q) fun ax => ?_).trans ?_
  · match ax with
    | ⟨0, _⟩ => rfl
    | ⟨1, _⟩ =>
      show q.val = if N = 1 then 0 else q.val
      split
      · have := q.isLt; omega
      · rfl
  · refine broadcastInDim_apply ![1] h₁ b (ix2 (0 : Fin 1) q) (ix1 q) fun ax => ?_
    match ax with
    | ⟨0, _⟩ =>
      show q.val = if N = 1 then 0 else q.val
      split
      · have := q.isLt; omega
      · rfl

/-- One affine map on the host, at (r, q). -/
theorem hostAff_apply (x : FVec Ideal ⟨2, ![M, K]⟩ .f32) (w : FVec Ideal ⟨2, ![K, N]⟩ .f32)
    (b : FVec Ideal ⟨1, ![N]⟩ .f32) (h₁ : (⟨1, ![N]⟩ : Shape).BroadcastsInDim ⟨2, ![1, N]⟩ ![1])
    (h₂ : (⟨2, ![1, N]⟩ : Shape).BroadcastsInDim ⟨2, ![M, N]⟩ ![0, 1]) (r : Fin M) (q : Fin N) :
    addf (Host.dotGeneral (DotDims.plain M K N) none x w)
        (broadcastInDim ⟨2, ![M, N]⟩ ![0, 1] h₂ (broadcastInDim ⟨2, ![1, N]⟩ ![1] h₁ b)) (ix2 r q)
      = aff x w b r q := by
  rw [addf_apply, hostBias_apply]
  exact congrArg (· + b (ix1 q)) (PlainDot.dotGeneral_apply none _ x w r q)

/-- The host's tanh of an array, entry by entry. -/
theorem hostTanh_apply {s : Shape} (u : FVec Ideal s .f32) (i : s.Idx) : Host.tanh u i = Ideal.tanh (u i) := rfl

/-- A leaky update on the host, entry by entry: the two constants are rank-0 arrays spread everywhere. -/
theorem hostLeak_apply {s : Shape} (cb db : BitVec FTy.f32.bits) (h₀ : (⟨0, ![]⟩ : Shape).BroadcastsInDim s ![])
    (x u : FVec Ideal s .f32) (i : s.Idx) :
    Host.tanh (addf (mulf (broadcastInDim s ![] h₀ (constant ⟨0, ![]⟩ .f32 cb)) x)
        (Host.divf u (broadcastInDim s ![] h₀ (constant ⟨0, ![]⟩ .f32 db)))) i
      = leak (Ideal.ofBits .f32 cb) (Ideal.ofBits .f32 db) (x i) (u i) := by
  have e : ∀ bb : BitVec FTy.f32.bits,
      broadcastInDim s ![] h₀ (constant (F := Ideal) ⟨0, ![]⟩ .f32 bb) i = Ideal.ofBits .f32 bb := fun bb =>
    broadcastInDim_apply ![] h₀ _ i ix0 fun ax => ax.elim0
  show Ideal.tanh (broadcastInDim s ![] h₀ (constant (F := Ideal) ⟨0, ![]⟩ .f32 cb) i * x i
      + Ideal.div (u i) (broadcastInDim s ![] h₀ (constant (F := Ideal) ⟨0, ![]⟩ .f32 db) i)) = _
  rw [e cb, e db]
  rfl

end Idealize.ShloMosaic.LeakyCell

end
-- ==== Proof.Spec.lean ====
/-
  The cell's four results as functions of the argument arrays, entry by entry, over the extended reals.

  The state is three blocks of a batch of 16384 rows: io (512 columns), fast (512), slow (256); the step's input has
  64 columns. Each block's drive is a sum of affine maps of the blocks that feed it (aff: a row against a weight
  matrix's column, plus a bias), and the block's new value is the leaky update tanh (c · old + drive / τ) with
  c = 1 − 1/τ rounded to single precision (leak), τ = 2, 5, 70 for io, fast, slow. The step's output is tanh of one
  affine map of the old io block. Every weight matrix is [fan-in, fan-out] and every bias [fan-out].
-/
import proofs.«177688_j4715874091405_2_alg».proof.Proof.LibLeakyCell

noncomputable section

namespace Cert.Mtrnn

open Idealize.ShloMosaic Idealize.ShloMosaic.ValueIdx Idealize.ShloMosaic.LeakyCell

/-- An a × b matrix of extended reals. -/
abbrev Mat (a b : Nat) : Type := (⟨2, ![a, b]⟩ : Shape).Idx → EReal
/-- A vector of a extended reals. -/
abbrev Vec1 (a : Nat) : Type := (⟨1, ![a]⟩ : Shape).Idx → EReal

/-- The step's output: tanh (io · W_out + b_out). -/
def output (io : Mat 16384 512) (wOut : Mat 512 64) (bOut : Vec1 64) : Mat 16384 64 :=
  fun i => Ideal.tanh (aff io wOut bOut (i 0) (i 1))

/-- The new io block: driven by io, fast and the input; τ = 2, c = 1/2. -/
def newIo (inp : Mat 16384 64) (io fast : Mat 16384 512) (wII : Mat 512 512) (bII : Vec1 512) (wFI : Mat 512 512)
    (bFI : Vec1 512) (wNI : Mat 64 512) (bNI : Vec1 512) : Mat 16384 512 :=
  fun i => leak (Ideal.ofBits .f32 0x3F000000#32) (Ideal.ofBits .f32 0x40000000#32) (io i)
    ((aff io wII bII (i 0) (i 1) + aff fast wFI bFI (i 0) (i 1)) + aff inp wNI bNI (i 0) (i 1))

/-- The new fast block: driven by fast, slow and io; τ = 5, c the single-precision 0.8. -/
def newFast (io fast : Mat 16384 512) (slow : Mat 16384 256) (wFF : Mat 512 512) (bFF : Vec1 512)
    (wSF : Mat 256 512) (bSF : Vec1 512) (wIF : Mat 512 512) (bIF : Vec1 512) : Mat 16384 512 :=
  fun i => leak (Ideal.ofBits .f32 0x3F4CCCCD#32) (Ideal.ofBits .f32 0x40A00000#32) (fast i)
    ((aff fast wFF bFF (i 0) (i 1) + aff slow wSF bSF (i 0) (i 1)) + aff io wIF bIF (i 0) (i 1))

/-- The new slow block: driven by slow and fast; τ = 70, c the single-precision 1 − 1/70. -/
def newSlow (fast : Mat 16384 512) (slow : Mat 16384 256) (wSS : Mat 256 256) (bSS : Vec1 256)
    (wFS : Mat 512 256) (bFS : Vec1 256) : Mat 16384 256 :=
  fun i => leak (Ideal.ofBits .f32 0x3F7C57C5#32) (Ideal.ofBits .f32 0x428C0000#32) (slow i)
    (aff slow wSS bSS (i 0) (i 1) + aff fast wFS bFS (i 0) (i 1))

end Cert.Mtrnn

end
-- ==== Proof.KernelAt.lean ====
/-
  What the kernel's body leaves in each output block, entry by entry, and why it is the cell's result there.

  The body works on a strip of 1024 rows of the batch. For each of the four results it forms the products of the
  strips with the weight matrices, adds them, adds ONE bias row (the biases of the block's affine maps, summed
  beforehand), and applies the leaky update (or, for the output, tanh). pay17_apply … pay20_apply read the four
  stored values at (p, q) as that formula of the loaded blocks.

  bridge17 … bridge20: if the loaded strips are rows r = o + p of the batch arrays, the weight blocks are the weight
  matrices and the bias row holds the sum of the biases, the stored value at (p, q) is the cell's result at (r, q).
  The only law used is that a sum of products and biases may be regrouped (regroup2, regroup3): commutativity and
  associativity of addition on the extended reals, which need no finiteness.
-/
import proofs.«177688_j4715874091405_2_alg».proof.Proof.Gen.KernelIdeal.Skeleton
import proofs.«177688_j4715874091405_2_alg».proof.Proof.LibLeakyCell
import proofs.«177688_j4715874091405_2_alg».proof.Proof.Spec

noncomputable section

open scoped BigOperators

namespace Cert.Mtrnn.KernelAt

open Cert.KernelIdeal Cert.KernelIdeal.Gen
open Idealize.ShloMosaic Idealize.ShloMosaic.ValueIdx Idealize.ShloMosaic.LeakyCell Cert.Mtrnn

/-! ## The stored values as formulas of the loaded blocks -/

/-- The output block at (p, q): tanh (Σ_k io(p, k) · W_out(k, q) + bias row(q)). -/
theorem pay17_apply (P1 : Vec Ideal S1024x512 .f32) (P12 : Vec Ideal S512x64 .bf16) (P16 : Vec Ideal S1x64 .f32)
    (p : Fin 1024) (q : Fin 64) :
    k0_pay1 (k0_pay14 (k0_pay6 P1) P12) (k0_pay15 P16) (ix2 p q)
      = Ideal.tanh ((∑ k : Fin 512, P1 (ix2 p k) * P12 (ix2 k q)) + P16 (ix2 (0 : Fin 1) q)) :=
  stripOut_apply (m := 1024) (K := 512) (N := 64) P1 P12 P16 bitsLt_bf16_f32 shapeCasts_S512x64_S512x64
    shapeCasts_S1x64_S1x64 broadcasts_S1x64_S1024x64 p q

/-- The new io block at (p, q): three products (io, fast, input), one bias row, τ = 2. -/
theorem pay18_apply (P0 : Vec Ideal S1024x64 .f32) (P1 P2 : Vec Ideal S1024x512 .f32) (P9 P10 : Vec Ideal S512x512 .bf16)
    (P11 : Vec Ideal S64x512 .bf16) (P15 : Vec Ideal S1x512 .f32) (p : Fin 1024) (q : Fin 512) :
    k0_pay2 (k0_pay13 P1 (k0_pay5 P0) (k0_pay6 P1) (k0_pay7 P2) P9 P10 P11 P15) (ix2 p q)
      = leak (Ideal.ofBits .f32 0x3F000000#32) (Ideal.ofBits .f32 0x40000000#32) (P1 (ix2 p q))
          ((((∑ k : Fin 512, P1 (ix2 p k) * P9 (ix2 k q)) + ∑ k : Fin 512, P2 (ix2 p k) * P10 (ix2 k q))
              + ∑ k : Fin 64, P0 (ix2 p k) * P11 (ix2 k q)) + P15 (ix2 (0 : Fin 1) q)) :=
  stripCell3_apply (m := 1024) (N := 512) (K₁ := 512) (K₂ := 512) (K₃ := 64)
    (Scalar.ofBits .f32 0x3F000000#32) (Scalar.ofBits .f32 0x40000000#32) P1 P1 P9 P2 P10 P0 P11 P15
    bitsLt_bf16_f32 shapeCasts_S512x512_S512x512 shapeCasts_S512x512_S512x512 shapeCasts_S64x512_S64x512
    shapeCasts_S1x512_S1x512 broadcasts_S1x512_S1024x512 p q

/-- The new fast block at (p, q): three products (fast, slow, io), one bias row, τ = 5. -/
theorem pay19_apply (P1 P2 : Vec Ideal S1024x512 .f32) (P3 : Vec Ideal S1024x256 .f32) (P4 : Vec Ideal S512x512 .bf16)
    (P5 : Vec Ideal S256x512 .bf16) (P6 : Vec Ideal S512x512 .bf16) (P13 : Vec Ideal S1x512 .f32)
    (p : Fin 1024) (q : Fin 512) :
    k0_pay3 (k0_pay9 P1 P2 P3 P4 P5 P6 P13) (ix2 p q)
      = leak (Ideal.ofBits .f32 0x3F4CCCCD#32) (Ideal.ofBits .f32 0x40A00000#32) (P2 (ix2 p q))
          ((((∑ k : Fin 512, P2 (ix2 p k) * P4 (ix2 k q)) + ∑ k : Fin 256, P3 (ix2 p k) * P5 (ix2 k q))
              + ∑ k : Fin 512, P1 (ix2 p k) * P6 (ix2 k q)) + P13 (ix2 (0 : Fin 1) q)) :=
  stripCell3_apply (m := 1024) (N := 512) (K₁ := 512) (K₂ := 256) (K₃ := 512)
    (Scalar.ofBits .f32 0x3F4CCCCD#32) (Scalar.ofBits .f32 0x40A00000#32) P2 P2 P4 P3 P5 P1 P6 P13
    bitsLt_bf16_f32 shapeCasts_S512x512_S512x512 shapeCasts_S256x512_S256x512 shapeCasts_S512x512_S512x512
    shapeCasts_S1x512_S1x512 broadcasts_S1x512_S1024x512 p q

/-- The new slow block at (p, q): two products (slow, fast), one bias row, τ = 70. -/
theorem pay20_apply (P2 : Vec Ideal S1024x512 .f32) (P3 : Vec Ideal S1024x256 .f32) (P7 : Vec Ideal S256x256 .bf16)
    (P8 : Vec Ideal S512x256 .bf16) (P14 : Vec Ideal S1x256 .f32) (p : Fin 1024) (q : Fin 256) :
    k0_pay4 (k0_pay12 P3 (k0_pay7 P2) (k0_pay10 P3 P7) (k0_pay11 P8) P14) (ix2 p q)
      = leak (Ideal.ofBits .f32 0x3F7C57C5#32) (Ideal.ofBits .f32 0x428C0000#32) (P3 (ix2 p q))
          (((∑ k : Fin 256, P3 (ix2 p k) * P7 (ix2 k q)) + ∑ k : Fin 512, P2 (ix2 p k) * P8 (ix2 k q))
            + P14 (ix2 (0 : Fin 1) q)) :=
  stripCell2_apply (m := 1024) (N := 256) (K₁ := 256) (K₂ := 512)
    (Scalar.ofBits .f32 0x3F7C57C5#32) (Scalar.ofBits .f32 0x428C0000#32) P3 P3 P7 P2 P8 P14
    bitsLt_bf16_f32 shapeCasts_S256x256_S256x256 shapeCasts_S512x256_S512x256
    shapeCasts_S1x256_S1x256 broadcasts_S1x256_S1024x256 p q

/-! ## A strip's stored value is the cell's result on that strip's rows -/

/-- The output block: row p of the strip is row r of the batch. -/
theorem bridge17 (P1 : Vec Ideal S1024x512 .f32) (P12 : Vec Ideal S512x64 .bf16) (P16 : Vec Ideal S1x64 .f32)
    (io : Mat 16384 512) (wOut : Mat 512 64) (bOut : Vec1 64) (r : Fin 16384) (p : Fin 1024) (q : Fin 64)
    (h1 : ∀ k : Fin 512, P1 (ix2 p k) = io (ix2 r k))
    (h12 : ∀ (k : Fin 512) (j : Fin 64), P12 (ix2 k j) = wOut (ix2 k j))
    (h16 : ∀ j : Fin 64, P16 (ix2 (0 : Fin 1) j) = bOut (ix1 j)) :
    k0_pay1 (k0_pay14 (k0_pay6 P1) P12) (k0_pay15 P16) (ix2 p q) = output io wOut bOut (ix2 r q) := by
  refine (pay17_apply P1 P12 P16 p q).trans ?_
  simp only [h1, h12, h16]
  rfl

/-- The new io block. -/
theorem bridge18 (P0 : Vec Ideal S1024x64 .f32) (P1 P2 : Vec Ideal S1024x512 .f32) (P9 P10 : Vec Ideal S512x512 .bf16)
    (P11 : Vec Ideal S64x512 .bf16) (P15 : Vec Ideal S1x512 .f32)
    (inp : Mat 16384 64) (io fast : Mat 16384 512) (wII : Mat 512 512) (bII : Vec1 512) (wFI : Mat 512 512)
    (bFI : Vec1 512) (wNI : Mat 64 512) (bNI : Vec1 512) (r : Fin 16384) (p : Fin 1024) (q : Fin 512)
    (h0 : ∀ k : Fin 64, P0 (ix2 p k) = inp (ix2 r k))
    (h1 : ∀ k : Fin 512, P1 (ix2 p k) = io (ix2 r k))
    (h2 : ∀ k : Fin 512, P2 (ix2 p k) = fast (ix2 r k))
    (h9 : ∀ (k : Fin 512) (j : Fin 512), P9 (ix2 k j) = wII (ix2 k j))
    (h10 : ∀ (k : Fin 512) (j : Fin 512), P10 (ix2 k j) = wFI (ix2 k j))
    (h11 : ∀ (k : Fin 64) (j : Fin 512), P11 (ix2 k j) = wNI (ix2 k j))
    (h15 : ∀ j : Fin 512, P15 (ix2 (0 : Fin 1) j) = (bII (ix1 j) + bFI (ix1 j)) + bNI (ix1 j)) :
    k0_pay2 (k0_pay13 P1 (k0_pay5 P0) (k0_pay6 P1) (k0_pay7 P2) P9 P10 P11 P15) (ix2 p q)
      = newIo inp io fast wII bII wFI bFI wNI bNI (ix2 r q) := by
  refine (pay18_apply P0 P1 P2 P9 P10 P11 P15 p q).trans ?_
  simp only [h0, h1, h2, h9, h10, h11, h15]
  exact congrArg (leak _ _ _) (regroup3 _ _ _ _ _ _)

/-- The new fast block. -/
theorem bridge19 (P1 P2 : Vec Ideal S1024x512 .f32) (P3 : Vec Ideal S1024x256 .f32) (P4 : Vec Ideal S512x512 .bf16)
    (P5 : Vec Ideal S256x512 .bf16) (P6 : Vec Ideal S512x512 .bf16) (P13 : Vec Ideal S1x512 .f32)
    (io fast : Mat 16384 512) (slow : Mat 16384 256) (wFF : Mat 512 512) (bFF : Vec1 512)
    (wSF : Mat 256 512) (bSF : Vec1 512) (wIF : Mat 512 512) (bIF : Vec1 512)
    (r : Fin 16384) (p : Fin 1024) (q : Fin 512)
    (h1 : ∀ k : Fin 512, P1 (ix2 p k) = io (ix2 r k))
    (h2 : ∀ k : Fin 512, P2 (ix2 p k) = fast (ix2 r k))
    (h3 : ∀ k : Fin 256, P3 (ix2 p k) = slow (ix2 r k))
    (h4 : ∀ (k : Fin 512) (j : Fin 512), P4 (ix2 k j) = wFF (ix2 k j))
    (h5 : ∀ (k : Fin 256) (j : Fin 512), P5 (ix2 k j) = wSF (ix2 k j))
    (h6 : ∀ (k : Fin 512) (j : Fin 512), P6 (ix2 k j) = wIF (ix2 k j))
    (h13 : ∀ j : Fin 512, P13 (ix2 (0 : Fin 1) j) = (bFF (ix1 j) + bSF (ix1 j)) + bIF (ix1 j)) :
    k0_pay3 (k0_pay9 P1 P2 P3 P4 P5 P6 P13) (ix2 p q)
      = newFast io fast slow wFF bFF wSF bSF wIF bIF (ix2 r q) := by
  refine (pay19_apply P1 P2 P3 P4 P5 P6 P13 p q).trans ?_
  simp only [h1, h2, h3, h4, h5, h6, h13]
  exact congrArg (leak _ _ _) (regroup3 _ _ _ _ _ _)

/-- The new slow block. -/
theorem bridge20 (P2 : Vec Ideal S1024x512 .f32) (P3 : Vec Ideal S1024x256 .f32) (P7 : Vec Ideal S256x256 .bf16)
    (P8 : Vec Ideal S512x256 .bf16) (P14 : Vec Ideal S1x256 .f32)
    (fast : Mat 16384 512) (slow : Mat 16384 256) (wSS : Mat 256 256) (bSS : Vec1 256)
    (wFS : Mat 512 256) (bFS : Vec1 256) (r : Fin 16384) (p : Fin 1024) (q : Fin 256)
    (h2 : ∀ k : Fin 512, P2 (ix2 p k) = fast (ix2 r k))
    (h3 : ∀ k : Fin 256, P3 (ix2 p k) = slow (ix2 r k))
    (h7 : ∀ (k : Fin 256) (j : Fin 256), P7 (ix2 k j) = wSS (ix2 k j))
    (h8 : ∀ (k : Fin 512) (j : Fin 256), P8 (ix2 k j) = wFS (ix2 k j))
    (h14 : ∀ j : Fin 256, P14 (ix2 (0 : Fin 1) j) = bSS (ix1 j) + bFS (ix1 j)) :
    k0_pay4 (k0_pay12 P3 (k0_pay7 P2) (k0_pay10 P3 P7) (k0_pay11 P8) P14) (ix2 p q)
      = newSlow fast slow wSS bSS wFS bFS (ix2 r q) := by
  refine (pay20_apply P2 P3 P7 P8 P14 p q).trans ?_
  simp only [h2, h3, h7, h8, h14]
  exact congrArg (leak _ _ _) (regroup2 _ _ _ _)

end Cert.Mtrnn.KernelAt

end
-- ==== Proof.HostSide.lean ====
/-
  The arrays the kernel's region finds, as functions of the argument arrays.

  Before the region the host narrows the nine weight matrices to bf16 (the identity on extended reals), adds the
  biases that feed one block — (b_ff + b_sf) + b_if for fast, b_ss + b_fs for slow, (b_ii + b_fi) + b_ni for io —
  and lays each sum, and the output bias, out as one row [1, n]. Entry by entry: a narrowed matrix is the matrix,
  and a bias row at (0, j) is the sum of the biases' entries j.
-/
import proofs.«177688_j4715874091405_2_alg».proof.Proof.Gen.KernelIdeal.Frame
import proofs.«177688_j4715874091405_2_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.Mtrnn.K

open Cert.KernelIdeal Cert.KernelIdeal.Gen Cert.Mtrnn
open Idealize.ShloMosaic Idealize.ShloMosaic.ValueIdx Idealize.ShloMosaic.TcCoe Idealize.SL.Sem Idealize.ShloMosaic.StableHlo

variable (m : (ℓ : Loc nD τ sig) → Buf (Elt Ideal) ℓ)

/-! ## The argument arrays on a core, as matrices and vectors of extended reals -/

/-- Argument 0 (the step's input) on core c. -/
abbrev a0 (c : Dev nD) : Mat 16384 64 := m ((c : Thread nD τ).loc main_arg0)
/-- Argument 1 (the io block) on core c. -/
abbrev a1 (c : Dev nD) : Mat 16384 512 := m ((c : Thread nD τ).loc main_arg1)
/-- Argument 2 (the fast block) on core c. -/
abbrev a2 (c : Dev nD) : Mat 16384 512 := m ((c : Thread nD τ).loc main_arg2)
/-- Argument 3 (the slow block) on core c. -/
abbrev a3 (c : Dev nD) : Mat 16384 256 := m ((c : Thread nD τ).loc main_arg3)
/-- Argument 4 (input → io weights) on core c. -/
abbrev a4 (c : Dev nD) : Mat 64 512 := m ((c : Thread nD τ).loc main_arg4)
/-- Argument 5 (input → io bias) on core c. -/
abbrev a5 (c : Dev nD) : Vec1 512 := m ((c : Thread nD τ).loc main_arg5)
/-- Argument 6 (io → fast weights) on core c. -/
abbrev a6 (c : Dev nD) : Mat 512 512 := m ((c : Thread nD τ).loc main_arg6)
/-- Argument 7 (io → fast bias) on core c. -/
abbrev a7 (c : Dev nD) : Vec1 512 := m ((c : Thread nD τ).loc main_arg7)
/-- Argument 8 (fast → fast weights) on core c. -/
abbrev a8 (c : Dev nD) : Mat 512 512 := m ((c : Thread nD τ).loc main_arg8)
/-- Argument 9 (fast → fast bias) on core c. -/
abbrev a9 (c : Dev nD) : Vec1 512 := m ((c : Thread nD τ).loc main_arg9)
/-- Argument 10 (fast → slow weights) on core c. -/
abbrev a10 (c : Dev nD) : Mat 512 256 := m ((c : Thread nD τ).loc main_arg10)
/-- Argument 11 (fast → slow bias) on core c. -/
abbrev a11 (c : Dev nD) : Vec1 256 := m ((c : Thread nD τ).loc main_arg11)
/-- Argument 12 (slow → slow weights) on core c. -/
abbrev a12 (c : Dev nD) : Mat 256 256 := m ((c : Thread nD τ).loc main_arg12)
/-- Argument 13 (slow → slow bias) on core c. -/
abbrev a13 (c : Dev nD) : Vec1 256 := m ((c : Thread nD τ).loc main_arg13)
/-- Argument 14 (slow → fast weights) on core c. -/
abbrev a14 (c : Dev nD) : Mat 256 512 := m ((c : Thread nD τ).loc main_arg14)
/-- Argument 15 (slow → fast bias) on core c. -/
abbrev a15 (c : Dev nD) : Vec1 512 := m ((c : Thread nD τ).loc main_arg15)
/-- Argument 16 (fast → io weights) on core c. -/
abbrev a16 (c : Dev nD) : Mat 512 512 := m ((c : Thread nD τ).loc main_arg16)
/-- Argument 17 (fast → io bias) on core c. -/
abbrev a17 (c : Dev nD) : Vec1 512 := m ((c : Thread nD τ).loc main_arg17)
/-- Argument 18 (io → io weights) on core c. -/
abbrev a18 (c : Dev nD) : Mat 512 512 := m ((c : Thread nD τ).loc main_arg18)
/-- Argument 19 (io → io bias) on core c. -/
abbrev a19 (c : Dev nD) : Vec1 512 := m ((c : Thread nD τ).loc main_arg19)
/-- Argument 20 (io → output weights) on core c. -/
abbrev a20 (c : Dev nD) : Mat 512 64 := m ((c : Thread nD τ).loc main_arg20)
/-- Argument 21 (output bias) on core c. -/
abbrev a21 (c : Dev nD) : Vec1 64 := m ((c : Thread nD τ).loc main_arg21)

/-! ## The narrowed weight matrices -/

/-- The region finds argument 8 (fast → fast weights), narrowed, in buffer 0: the same extended reals. -/
theorem V_v0 (c : Dev nD) (i : S512x512.Idx) : V m c main_v0 i = a8 m c i := by
  have e : @Eq (S512x512.Idx → EReal) (V m c main_v0) (truncf (F := Ideal) .bf16 (a8 m c) bitsLt_bf16_f32) := by
    dsimp only [Gen.V, Gen.hostOps0]; after_results
  exact congrFun e i

/-- The region finds argument 14 (slow → fast weights), narrowed, in buffer 1: the same extended reals. -/
theorem V_v1 (c : Dev nD) (i : S256x512.Idx) : V m c main_v1 i = a14 m c i := by
  have e : @Eq (S256x512.Idx → EReal) (V m c main_v1) (truncf (F := Ideal) .bf16 (a14 m c) bitsLt_bf16_f32) := by
    dsimp only [Gen.V, Gen.hostOps0]; after_results
  exact congrFun e i

/-- The region finds argument 6 (io → fast weights), narrowed, in buffer 2: the same extended reals. -/
theorem V_v2 (c : Dev nD) (i : S512x512.Idx) : V m c main_v2 i = a6 m c i := by
  have e : @Eq (S512x512.Idx → EReal) (V m c main_v2) (truncf (F := Ideal) .bf16 (a6 m c) bitsLt_bf16_f32) := by
    dsimp only [Gen.V, Gen.hostOps0]; after_results
  exact congrFun e i

/-- The region finds argument 12 (slow → slow weights), narrowed, in buffer 3: the same extended reals. -/
theorem V_v3 (c : Dev nD) (i : S256x256.Idx) : V m c main_v3 i = a12 m c i := by
  have e : @Eq (S256x256.Idx → EReal) (V m c main_v3) (truncf (F := Ideal) .bf16 (a12 m c) bitsLt_bf16_f32) := by
    dsimp only [Gen.V, Gen.hostOps0]; after_results
  exact congrFun e i

/-- The region finds argument 10 (fast → slow weights), narrowed, in buffer 4: the same extended reals. -/
theorem V_v4 (c : Dev nD) (i : S512x256.Idx) : V m c main_v4 i = a10 m c i := by
  have e : @Eq (S512x256.Idx → EReal) (V m c main_v4) (truncf (F := Ideal) .bf16 (a10 m c) bitsLt_bf16_f32) := by
    dsimp only [Gen.V, Gen.hostOps0]; after_results
  exact congrFun e i

/-- The region finds argument 18 (io → io weights), narrowed, in buffer 5: the same extended reals. -/
theorem V_v5 (c : Dev nD) (i : S512x512.Idx) : V m c main_v5 i = a18 m c i := by
  have e : @Eq (S512x512.Idx → EReal) (V m c main_v5) (truncf (F := Ideal) .bf16 (a18 m c) bitsLt_bf16_f32) := by
    dsimp only [Gen.V, Gen.hostOps0]; after_results
  exact congrFun e i

/-- The region finds argument 16 (fast → io weights), narrowed, in buffer 6: the same extended reals. -/
theorem V_v6 (c : Dev nD) (i : S512x512.Idx) : V m c main_v6 i = a16 m c i := by
  have e : @Eq (S512x512.Idx → EReal) (V m c main_v6) (truncf (F := Ideal) .bf16 (a16 m c) bitsLt_bf16_f32) := by
    dsimp only [Gen.V, Gen.hostOps0]; after_results
  exact congrFun e i

/-- The region finds argument 4 (input → io weights), narrowed, in buffer 7: the same extended reals. -/
theorem V_v7 (c : Dev nD) (i : S64x512.Idx) : V m c main_v7 i = a4 m c i := by
  have e : @Eq (S64x512.Idx → EReal) (V m c main_v7) (truncf (F := Ideal) .bf16 (a4 m c) bitsLt_bf16_f32) := by
    dsimp only [Gen.V, Gen.hostOps0]; after_results
  exact congrFun e i

/-- The region finds argument 20 (io → output weights), narrowed, in buffer 8: the same extended reals. -/
theorem V_v8 (c : Dev nD) (i : S512x64.Idx) : V m c main_v8 i = a20 m c i := by
  have e : @Eq (S512x64.Idx → EReal) (V m c main_v8) (truncf (F := Ideal) .bf16 (a20 m c) bitsLt_bf16_f32) := by
    dsimp only [Gen.V, Gen.hostOps0]; after_results
  exact congrFun e i

/-! ## The bias rows -/

/-- The fast block's bias row at (0, j): (b_ff + b_sf) + b_if at j. -/
theorem V_v11 (c : Dev nD) (j : Fin 512) :
    V m c main_v11 (ix2 (0 : Fin 1) j) = (a9 m c (ix1 j) + a15 m c (ix1 j)) + a7 m c (ix1 j) := by
  have e : @Eq (S1x512.Idx → EReal) (V m c main_v11)
      (shapeCast S1x512 (addf (F := Ideal) (φ := .f32) (addf (F := Ideal) (φ := .f32) (a9 m c) (a15 m c)) (a7 m c)) shapeCasts_S512_S1x512) := by
    dsimp only [Gen.V, Gen.hostOps0]; after_results; rfl
  rw [e]
  exact shapeCast_a_1a_apply _ shapeCasts_S512_S1x512 (0 : Fin 1) j

/-- The slow block's bias row at (0, j): b_ss + b_fs at j. -/
theorem V_v13 (c : Dev nD) (j : Fin 256) :
    V m c main_v13 (ix2 (0 : Fin 1) j) = a13 m c (ix1 j) + a11 m c (ix1 j) := by
  have e : @Eq (S1x256.Idx → EReal) (V m c main_v13)
      (shapeCast S1x256 (addf (F := Ideal) (φ := .f32) (a13 m c) (a11 m c)) shapeCasts_S256_S1x256) := by
    dsimp only [Gen.V, Gen.hostOps0]; after_results; rfl
  rw [e]
  exact shapeCast_a_1a_apply _ shapeCasts_S256_S1x256 (0 : Fin 1) j

/-- The io block's bias row at (0, j): (b_ii + b_fi) + b_ni at j. -/
theorem V_v16 (c : Dev nD) (j : Fin 512) :
    V m c main_v16 (ix2 (0 : Fin 1) j) = (a19 m c (ix1 j) + a17 m c (ix1 j)) + a5 m c (ix1 j) := by
  have e : @Eq (S1x512.Idx → EReal) (V m c main_v16)
      (shapeCast S1x512 (addf (F := Ideal) (φ := .f32) (addf (F := Ideal) (φ := .f32) (a19 m c) (a17 m c)) (a5 m c)) shapeCasts_S512_S1x512) := by
    dsimp only [Gen.V, Gen.hostOps0]; after_results; rfl
  rw [e]
  exact shapeCast_a_1a_apply _ shapeCasts_S512_S1x512 (0 : Fin 1) j

/-- The output's bias row at (0, j): the output bias at j. -/
theorem V_v17 (c : Dev nD) (j : Fin 64) : V m c main_v17 (ix2 (0 : Fin 1) j) = a21 m c (ix1 j) := by
  have e : @Eq (S1x64.Idx → EReal) (V m c main_v17) (shapeCast S1x64 (a21 m c) shapeCasts_S64_S1x64) := by
    dsimp only [Gen.V, Gen.hostOps0]; after_results; rfl
  rw [e]
  exact shapeCast_a_1a_apply _ shapeCasts_S64_S1x64 (0 : Fin 1) j

end Cert.Mtrnn.K

end
-- ==== Proof.Blocks.lean ====
/-
  The windows' blocks at a grid point, entry by entry, and the output blocks' cover of their arrays.

  The grid has 16 points; point t works on rows t·1024 … t·1024 + 1023 of the batch. The four state windows (and the
  four result windows) move with t along the rows; the nine weight windows and the four bias-row windows stay on
  their whole arrays. So at point t a state block's entry (p, k) is the array's entry (t·1024 + p, k), a weight
  block is the weight matrix, a bias-row block is the bias row; and the 16 result blocks tile each result array.
-/
import proofs.«177688_j4715874091405_2_alg».proof.Proof.Gen.KernelIdeal.Value
import proofs.«177688_j4715874091405_2_alg».proof.Proof.HostSide

noncomputable section

namespace Cert.Mtrnn.K

open Cert.KernelIdeal Cert.KernelIdeal.Gen Cert.Mtrnn
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-! ## The index maps, decided over the 16 grid points -/

/-- Window 0 moves with the grid point along the rows and stays at column block 0. -/
theorem idx0 : ∀ t : Fin cfg0.N, win0_0.index t (0 : Fin 2) = t.val ∧ win0_0.index t (1 : Fin 2) = 0 :=
  (by decide +kernel : ∀ t : Fin grid0.N, _)
/-- Window 1 moves with the grid point along the rows and stays at column block 0. -/
theorem idx1 : ∀ t : Fin cfg0.N, win0_1.index t (0 : Fin 2) = t.val ∧ win0_1.index t (1 : Fin 2) = 0 :=
  (by decide +kernel : ∀ t : Fin grid0.N, _)
/-- Window 2 moves with the grid point along the rows and stays at column block 0. -/
theorem idx2 : ∀ t : Fin cfg0.N, win0_2.index t (0 : Fin 2) = t.val ∧ win0_2.index t (1 : Fin 2) = 0 :=
  (by decide +kernel : ∀ t : Fin grid0.N, _)
/-- Window 3 moves with the grid point along the rows and stays at column block 0. -/
theorem idx3 : ∀ t : Fin cfg0.N, win0_3.index t (0 : Fin 2) = t.val ∧ win0_3.index t (1 : Fin 2) = 0 :=
  (by decide +kernel : ∀ t : Fin grid0.N, _)
/-- Window 17 moves with the grid point along the rows and stays at column block 0. -/
theorem idx17 : ∀ t : Fin cfg0.N, win0_17.index t (0 : Fin 2) = t.val ∧ win0_17.index t (1 : Fin 2) = 0 :=
  (by decide +kernel : ∀ t : Fin grid0.N, _)
/-- Window 18 moves with the grid point along the rows and stays at column block 0. -/
theorem idx18 : ∀ t : Fin cfg0.N, win0_18.index t (0 : Fin 2) = t.val ∧ win0_18.index t (1 : Fin 2) = 0 :=
  (by decide +kernel : ∀ t : Fin grid0.N, _)
/-- Window 19 moves with the grid point along the rows and stays at column block 0. -/
theorem idx19 : ∀ t : Fin cfg0.N, win0_19.index t (0 : Fin 2) = t.val ∧ win0_19.index t (1 : Fin 2) = 0 :=
  (by decide +kernel : ∀ t : Fin grid0.N, _)
/-- Window 20 moves with the grid point along the rows and stays at column block 0. -/
theorem idx20 : ∀ t : Fin cfg0.N, win0_20.index t (0 : Fin 2) = t.val ∧ win0_20.index t (1 : Fin 2) = 0 :=
  (by decide +kernel : ∀ t : Fin grid0.N, _)
/-- Window 4 stays on its whole array. -/
theorem idx4 : ∀ t : Fin cfg0.N, win0_4.index t (0 : Fin 2) = 0 ∧ win0_4.index t (1 : Fin 2) = 0 :=
  (by decide +kernel : ∀ t : Fin grid0.N, _)
/-- Window 5 stays on its whole array. -/
theorem idx5 : ∀ t : Fin cfg0.N, win0_5.index t (0 : Fin 2) = 0 ∧ win0_5.index t (1 : Fin 2) = 0 :=
  (by decide +kernel : ∀ t : Fin grid0.N, _)
/-- Window 6 stays on its whole array. -/
theorem idx6 : ∀ t : Fin cfg0.N, win0_6.index t (0 : Fin 2) = 0 ∧ win0_6.index t (1 : Fin 2) = 0 :=
  (by decide +kernel : ∀ t : Fin grid0.N, _)
/-- Window 7 stays on its whole array. -/
theorem idx7 : ∀ t : Fin cfg0.N, win0_7.index t (0 : Fin 2) = 0 ∧ win0_7.index t (1 : Fin 2) = 0 :=
  (by decide +kernel : ∀ t : Fin grid0.N, _)
/-- Window 8 stays on its whole array. -/
theorem idx8 : ∀ t : Fin cfg0.N, win0_8.index t (0 : Fin 2) = 0 ∧ win0_8.index t (1 : Fin 2) = 0 :=
  (by decide +kernel : ∀ t : Fin grid0.N, _)
/-- Window 9 stays on its whole array. -/
theorem idx9 : ∀ t : Fin cfg0.N, win0_9.index t (0 : Fin 2) = 0 ∧ win0_9.index t (1 : Fin 2) = 0 :=
  (by decide +kernel : ∀ t : Fin grid0.N, _)
/-- Window 10 stays on its whole array. -/
theorem idx10 : ∀ t : Fin cfg0.N, win0_10.index t (0 : Fin 2) = 0 ∧ win0_10.index t (1 : Fin 2) = 0 :=
  (by decide +kernel : ∀ t : Fin grid0.N, _)
/-- Window 11 stays on its whole array. -/
theorem idx11 : ∀ t : Fin cfg0.N, win0_11.index t (0 : Fin 2) = 0 ∧ win0_11.index t (1 : Fin 2) = 0 :=
  (by decide +kernel : ∀ t : Fin grid0.N, _)
/-- Window 12 stays on its whole array. -/
theorem idx12 : ∀ t : Fin cfg0.N, win0_12.index t (0 : Fin 2) = 0 ∧ win0_12.index t (1 : Fin 2) = 0 :=
  (by decide +kernel : ∀ t : Fin grid0.N, _)
/-- Window 13 stays on its whole array. -/
theorem idx13 : ∀ t : Fin cfg0.N, win0_13.index t (0 : Fin 2) = 0 ∧ win0_13.index t (1 : Fin 2) = 0 :=
  (by decide +kernel : ∀ t : Fin grid0.N, _)
/-- Window 14 stays on its whole array. -/
theorem idx14 : ∀ t : Fin cfg0.N, win0_14.index t (0 : Fin 2) = 0 ∧ win0_14.index t (1 : Fin 2) = 0 :=
  (by decide +kernel : ∀ t : Fin grid0.N, _)
/-- Window 15 stays on its whole array. -/
theorem idx15 : ∀ t : Fin cfg0.N, win0_15.index t (0 : Fin 2) = 0 ∧ win0_15.index t (1 : Fin 2) = 0 :=
  (by decide +kernel : ∀ t : Fin grid0.N, _)
/-- Window 16 stays on its whole array. -/
theorem idx16 : ∀ t : Fin cfg0.N, win0_16.index t (0 : Fin 2) = 0 ∧ win0_16.index t (1 : Fin 2) = 0 :=
  (by decide +kernel : ∀ t : Fin grid0.N, _)

/-- Row p of the strip at grid point t is row t·1024 + p of the batch. -/
def row (t : Fin cfg0.N) (p : Fin 1024) : Fin 16384 :=
  ⟨t.val * 1024 + p.val, by
    have h : t.val < grid0.N := t.isLt
    rw [N_0] at h
    have := p.isLt
    omega⟩

/-! ## The state blocks: rows t·1024 … of the batch arrays -/

/-- Window 0's block at point t, at (p, k): argument 0 (the step's input) at (t·1024 + p, k). -/
theorem blk0 (c : Dev nD) (t : Fin cfg0.N) (p : Fin 1024) (k : Fin 64) :
    iblk m c 0 t (ix2 p k) = a0 m c (ix2 (row t p) k) := by
  show V m c main_arg0 (((cfg0.win 0).blk t).view.emb (ix2 p k)) = _
  rw [V_main_arg0]
  refine congrArg (a0 m c) ?_
  obtain ⟨e0, e1⟩ := idx0 t
  funext a; apply Fin.ext
  match a with
  | ⟨0, _⟩ => show win0_0.index t (0 : Fin 2) * 1024 + 1 * p.val = t.val * 1024 + p.val; rw [e0]; omega
  | ⟨1, _⟩ => show win0_0.index t (1 : Fin 2) * 64 + 1 * k.val = k.val; rw [e1]; omega

/-- Window 1's block at point t, at (p, k): argument 1 (the io block) at (t·1024 + p, k). -/
theorem blk1 (c : Dev nD) (t : Fin cfg0.N) (p : Fin 1024) (k : Fin 512) :
    iblk m c 1 t (ix2 p k) = a1 m c (ix2 (row t p) k) := by
  show V m c main_arg1 (((cfg0.win 1).blk t).view.emb (ix2 p k)) = _
  rw [V_main_arg1]
  refine congrArg (a1 m c) ?_
  obtain ⟨e0, e1⟩ := idx1 t
  funext a; apply Fin.ext
  match a with
  | ⟨0, _⟩ => show win0_1.index t (0 : Fin 2) * 1024 + 1 * p.val = t.val * 1024 + p.val; rw [e0]; omega
  | ⟨1, _⟩ => show win0_1.index t (1 : Fin 2) * 512 + 1 * k.val = k.val; rw [e1]; omega

/-- Window 2's block at point t, at (p, k): argument 2 (the fast block) at (t·1024 + p, k). -/
theorem blk2 (c : Dev nD) (t : Fin cfg0.N) (p : Fin 1024) (k : Fin 512) :
    iblk m c 2 t (ix2 p k) = a2 m c (ix2 (row t p) k) := by
  show V m c main_arg2 (((cfg0.win 2).blk t).view.emb (ix2 p k)) = _
  rw [V_main_arg2]
  refine congrArg (a2 m c) ?_
  obtain ⟨e0, e1⟩ := idx2 t
  funext a; apply Fin.ext
  match a with
  | ⟨0, _⟩ => show win0_2.index t (0 : Fin 2) * 1024 + 1 * p.val = t.val * 1024 + p.val; rw [e0]; omega
  | ⟨1, _⟩ => show win0_2.index t (1 : Fin 2) * 512 + 1 * k.val = k.val; rw [e1]; omega

/-- Window 3's block at point t, at (p, k): argument 3 (the slow block) at (t·1024 + p, k). -/
theorem blk3 (c : Dev nD) (t : Fin cfg0.N) (p : Fin 1024) (k : Fin 256) :
    iblk m c 3 t (ix2 p k) = a3 m c (ix2 (row t p) k) := by
  show V m c main_arg3 (((cfg0.win 3).blk t).view.emb (ix2 p k)) = _
  rw [V_main_arg3]
  refine congrArg (a3 m c) ?_
  obtain ⟨e0, e1⟩ := idx3 t
  funext a; apply Fin.ext
  match a with
  | ⟨0, _⟩ => show win0_3.index t (0 : Fin 2) * 1024 + 1 * p.val = t.val * 1024 + p.val; rw [e0]; omega
  | ⟨1, _⟩ => show win0_3.index t (1 : Fin 2) * 256 + 1 * k.val = k.val; rw [e1]; omega

/-! ## The weight blocks: the weight matrices -/

/-- Window 4's block at any point: argument 8 (fast → fast weights), narrowed. -/
theorem blk4 (c : Dev nD) (t : Fin cfg0.N) (k : Fin 512) (j : Fin 512) :
    iblk m c 4 t (ix2 k j) = a8 m c (ix2 k j) := by
  show V m c main_v0 (((cfg0.win 4).blk t).view.emb (ix2 k j)) = _
  rw [V_v0]
  refine congrArg (a8 m c) ?_
  obtain ⟨e0, e1⟩ := idx4 t
  funext a; apply Fin.ext
  match a with
  | ⟨0, _⟩ => show win0_4.index t (0 : Fin 2) * 512 + 1 * k.val = k.val; rw [e0]; omega
  | ⟨1, _⟩ => show win0_4.index t (1 : Fin 2) * 512 + 1 * j.val = j.val; rw [e1]; omega

/-- Window 5's block at any point: argument 14 (slow → fast weights), narrowed. -/
theorem blk5 (c : Dev nD) (t : Fin cfg0.N) (k : Fin 256) (j : Fin 512) :
    iblk m c 5 t (ix2 k j) = a14 m c (ix2 k j) := by
  show V m c main_v1 (((cfg0.win 5).blk t).view.emb (ix2 k j)) = _
  rw [V_v1]
  refine congrArg (a14 m c) ?_
  obtain ⟨e0, e1⟩ := idx5 t
  funext a; apply Fin.ext
  match a with
  | ⟨0, _⟩ => show win0_5.index t (0 : Fin 2) * 256 + 1 * k.val = k.val; rw [e0]; omega
  | ⟨1, _⟩ => show win0_5.index t (1 : Fin 2) * 512 + 1 * j.val = j.val; rw [e1]; omega

/-- Window 6's block at any point: argument 6 (io → fast weights), narrowed. -/
theorem blk6 (c : Dev nD) (t : Fin cfg0.N) (k : Fin 512) (j : Fin 512) :
    iblk m c 6 t (ix2 k j) = a6 m c (ix2 k j) := by
  show V m c main_v2 (((cfg0.win 6).blk t).view.emb (ix2 k j)) = _
  rw [V_v2]
  refine congrArg (a6 m c) ?_
  obtain ⟨e0, e1⟩ := idx6 t
  funext a; apply Fin.ext
  match a with
  | ⟨0, _⟩ => show win0_6.index t (0 : Fin 2) * 512 + 1 * k.val = k.val; rw [e0]; omega
  | ⟨1, _⟩ => show win0_6.index t (1 : Fin 2) * 512 + 1 * j.val = j.val; rw [e1]; omega

/-- Window 7's block at any point: argument 12 (slow → slow weights), narrowed. -/
theorem blk7 (c : Dev nD) (t : Fin cfg0.N) (k : Fin 256) (j : Fin 256) :
    iblk m c 7 t (ix2 k j) = a12 m c (ix2 k j) := by
  show V m c main_v3 (((cfg0.win 7).blk t).view.emb (ix2 k j)) = _
  rw [V_v3]
  refine congrArg (a12 m c) ?_
  obtain ⟨e0, e1⟩ := idx7 t
  funext a; apply Fin.ext
  match a with
  | ⟨0, _⟩ => show win0_7.index t (0 : Fin 2) * 256 + 1 * k.val = k.val; rw [e0]; omega
  | ⟨1, _⟩ => show win0_7.index t (1 : Fin 2) * 256 + 1 * j.val = j.val; rw [e1]; omega

/-- Window 8's block at any point: argument 10 (fast → slow weights), narrowed. -/
theorem blk8 (c : Dev nD) (t : Fin cfg0.N) (k : Fin 512) (j : Fin 256) :
    iblk m c 8 t (ix2 k j) = a10 m c (ix2 k j) := by
  show V m c main_v4 (((cfg0.win 8).blk t).view.emb (ix2 k j)) = _
  rw [V_v4]
  refine congrArg (a10 m c) ?_
  obtain ⟨e0, e1⟩ := idx8 t
  funext a; apply Fin.ext
  match a with
  | ⟨0, _⟩ => show win0_8.index t (0 : Fin 2) * 512 + 1 * k.val = k.val; rw [e0]; omega
  | ⟨1, _⟩ => show win0_8.index t (1 : Fin 2) * 256 + 1 * j.val = j.val; rw [e1]; omega

/-- Window 9's block at any point: argument 18 (io → io weights), narrowed. -/
theorem blk9 (c : Dev nD) (t : Fin cfg0.N) (k : Fin 512) (j : Fin 512) :
    iblk m c 9 t (ix2 k j) = a18 m c (ix2 k j) := by
  show V m c main_v5 (((cfg0.win 9).blk t).view.emb (ix2 k j)) = _
  rw [V_v5]
  refine congrArg (a18 m c) ?_
  obtain ⟨e0, e1⟩ := idx9 t
  funext a; apply Fin.ext
  match a with
  | ⟨0, _⟩ => show win0_9.index t (0 : Fin 2) * 512 + 1 * k.val = k.val; rw [e0]; omega
  | ⟨1, _⟩ => show win0_9.index t (1 : Fin 2) * 512 + 1 * j.val = j.val; rw [e1]; omega

/-- Window 10's block at any point: argument 16 (fast → io weights), narrowed. -/
theorem blk10 (c : Dev nD) (t : Fin cfg0.N) (k : Fin 512) (j : Fin 512) :
    iblk m c 10 t (ix2 k j) = a16 m c (ix2 k j) := by
  show V m c main_v6 (((cfg0.win 10).blk t).view.emb (ix2 k j)) = _
  rw [V_v6]
  refine congrArg (a16 m c) ?_
  obtain ⟨e0, e1⟩ := idx10 t
  funext a; apply Fin.ext
  match a with
  | ⟨0, _⟩ => show win0_10.index t (0 : Fin 2) * 512 + 1 * k.val = k.val; rw [e0]; omega
  | ⟨1, _⟩ => show win0_10.index t (1 : Fin 2) * 512 + 1 * j.val = j.val; rw [e1]; omega

/-- Window 11's block at any point: argument 4 (input → io weights), narrowed. -/
theorem blk11 (c : Dev nD) (t : Fin cfg0.N) (k : Fin 64) (j : Fin 512) :
    iblk m c 11 t (ix2 k j) = a4 m c (ix2 k j) := by
  show V m c main_v7 (((cfg0.win 11).blk t).view.emb (ix2 k j)) = _
  rw [V_v7]
  refine congrArg (a4 m c) ?_
  obtain ⟨e0, e1⟩ := idx11 t
  funext a; apply Fin.ext
  match a with
  | ⟨0, _⟩ => show win0_11.index t (0 : Fin 2) * 64 + 1 * k.val = k.val; rw [e0]; omega
  | ⟨1, _⟩ => show win0_11.index t (1 : Fin 2) * 512 + 1 * j.val = j.val; rw [e1]; omega

/-- Window 12's block at any point: argument 20 (io → output weights), narrowed. -/
theorem blk12 (c : Dev nD) (t : Fin cfg0.N) (k : Fin 512) (j : Fin 64) :
    iblk m c 12 t (ix2 k j) = a20 m c (ix2 k j) := by
  show V m c main_v8 (((cfg0.win 12).blk t).view.emb (ix2 k j)) = _
  rw [V_v8]
  refine congrArg (a20 m c) ?_
  obtain ⟨e0, e1⟩ := idx12 t
  funext a; apply Fin.ext
  match a with
  | ⟨0, _⟩ => show win0_12.index t (0 : Fin 2) * 512 + 1 * k.val = k.val; rw [e0]; omega
  | ⟨1, _⟩ => show win0_12.index t (1 : Fin 2) * 64 + 1 * j.val = j.val; rw [e1]; omega

/-! ## The bias-row blocks: the summed biases -/

/-- Window 13's block at any point, at (0, j): the bias row's entry j. -/
theorem blk13 (c : Dev nD) (t : Fin cfg0.N) (j : Fin 512) :
    iblk m c 13 t (ix2 (0 : Fin 1) j) = (a9 m c (ix1 j) + a15 m c (ix1 j)) + a7 m c (ix1 j) := by
  show V m c main_v11 (((cfg0.win 13).blk t).view.emb (ix2 (0 : Fin 1) j)) = _
  have he : ((cfg0.win 13).blk t).view.emb (ix2 (0 : Fin 1) j) = ix2 (0 : Fin 1) j := by
    obtain ⟨e0, e1⟩ := idx13 t
    funext a; apply Fin.ext
    match a with
    | ⟨0, _⟩ => show win0_13.index t (0 : Fin 2) * 1 + 1 * ((0 : Fin 1) : Nat) = ((0 : Fin 1) : Nat); rw [e0]; omega
    | ⟨1, _⟩ => show win0_13.index t (1 : Fin 2) * 512 + 1 * j.val = j.val; rw [e1]; omega
  rw [he]
  exact V_v11 m c j

/-- Window 14's block at any point, at (0, j): the bias row's entry j. -/
theorem blk14 (c : Dev nD) (t : Fin cfg0.N) (j : Fin 256) :
    iblk m c 14 t (ix2 (0 : Fin 1) j) = a13 m c (ix1 j) + a11 m c (ix1 j) := by
  show V m c main_v13 (((cfg0.win 14).blk t).view.emb (ix2 (0 : Fin 1) j)) = _
  have he : ((cfg0.win 14).blk t).view.emb (ix2 (0 : Fin 1) j) = ix2 (0 : Fin 1) j := by
    obtain ⟨e0, e1⟩ := idx14 t
    funext a; apply Fin.ext
    match a with
    | ⟨0, _⟩ => show win0_14.index t (0 : Fin 2) * 1 + 1 * ((0 : Fin 1) : Nat) = ((0 : Fin 1) : Nat); rw [e0]; omega
    | ⟨1, _⟩ => show win0_14.index t (1 : Fin 2) * 256 + 1 * j.val = j.val; rw [e1]; omega
  rw [he]
  exact V_v13 m c j

/-- Window 15's block at any point, at (0, j): the bias row's entry j. -/
theorem blk15 (c : Dev nD) (t : Fin cfg0.N) (j : Fin 512) :
    iblk m c 15 t (ix2 (0 : Fin 1) j) = (a19 m c (ix1 j) + a17 m c (ix1 j)) + a5 m c (ix1 j) := by
  show V m c main_v16 (((cfg0.win 15).blk t).view.emb (ix2 (0 : Fin 1) j)) = _
  have he : ((cfg0.win 15).blk t).view.emb (ix2 (0 : Fin 1) j) = ix2 (0 : Fin 1) j := by
    obtain ⟨e0, e1⟩ := idx15 t
    funext a; apply Fin.ext
    match a with
    | ⟨0, _⟩ => show win0_15.index t (0 : Fin 2) * 1 + 1 * ((0 : Fin 1) : Nat) = ((0 : Fin 1) : Nat); rw [e0]; omega
    | ⟨1, _⟩ => show win0_15.index t (1 : Fin 2) * 512 + 1 * j.val = j.val; rw [e1]; omega
  rw [he]
  exact V_v16 m c j

/-- Window 16's block at any point, at (0, j): the bias row's entry j. -/
theorem blk16 (c : Dev nD) (t : Fin cfg0.N) (j : Fin 64) :
    iblk m c 16 t (ix2 (0 : Fin 1) j) = a21 m c (ix1 j) := by
  show V m c main_v17 (((cfg0.win 16).blk t).view.emb (ix2 (0 : Fin 1) j)) = _
  have he : ((cfg0.win 16).blk t).view.emb (ix2 (0 : Fin 1) j) = ix2 (0 : Fin 1) j := by
    obtain ⟨e0, e1⟩ := idx16 t
    funext a; apply Fin.ext
    match a with
    | ⟨0, _⟩ => show win0_16.index t (0 : Fin 2) * 1 + 1 * ((0 : Fin 1) : Nat) = ((0 : Fin 1) : Nat); rw [e0]; omega
    | ⟨1, _⟩ => show win0_16.index t (1 : Fin 2) * 64 + 1 * j.val = j.val; rw [e1]; omega
  rw [he]
  exact V_v17 m c j

/-! ## The result blocks: where they sit, and that they tile the result arrays -/

/-- Entry (p, q) of window 17's block at point t is entry (t·1024 + p, q) of its array. -/
theorem emb17 (t : Fin cfg0.N) (p : Fin 1024) (q : Fin 64) :
    ((cfg0.win 17).blk t).view.emb (ix2 p q) = ix2 (row t p) q := by
  obtain ⟨e0, e1⟩ := idx17 t
  funext a; apply Fin.ext
  match a with
  | ⟨0, _⟩ => show win0_17.index t (0 : Fin 2) * 1024 + 1 * p.val = t.val * 1024 + p.val; rw [e0]; omega
  | ⟨1, _⟩ => show win0_17.index t (1 : Fin 2) * 64 + 1 * q.val = q.val; rw [e1]; omega

/-- An index of window 17's array is in point t's block iff each coordinate is in the block's range. -/
theorem mem_blk17 (t : Fin cfg0.N) (i : S16384x64.Idx) :
    i ∈ ((cfg0.win 17).blk t).view.set ↔ ∀ a : Fin 2, win0_17.index t a * S1024x64.size a ≤ (i a).val ∧ (i a).val < win0_17.index t a * S1024x64.size a + S1024x64.size a := by
  show i ∈ ((View.whole main_v18_0).slice (win0_17.rect t)).set ↔ _
  rw [View.set_slice_whole, Rect.mem_set_unit]
  exact Iff.rfl

/-- Every index of window 17's array is in the block of the point its row falls in. -/
theorem cover17 (i : S16384x64.Idx) :
    ∃ t : Fin cfg0.N, (cfg0.win 17).flush t = true ∧ i ∈ ((cfg0.win 17).blk t).view.set := by
  have hi0 : (i 0).val < 16384 := (i 0).isLt
  have hi1 : (i 1).val < 64 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨e0, e1⟩ := idx17 t
  refine ⟨t, flush0_17 t, ?_⟩
  rw [mem_blk17]
  intro a
  match a with
  | ⟨0, _⟩ => show win0_17.index t (0 : Fin 2) * 1024 ≤ (i 0).val ∧ (i 0).val < win0_17.index t (0 : Fin 2) * 1024 + 1024; rw [e0]; omega
  | ⟨1, _⟩ => show win0_17.index t (1 : Fin 2) * 64 ≤ (i 1).val ∧ (i 1).val < win0_17.index t (1 : Fin 2) * 64 + 64; rw [e1]; omega

/-- Entry (p, q) of window 18's block at point t is entry (t·1024 + p, q) of its array. -/
theorem emb18 (t : Fin cfg0.N) (p : Fin 1024) (q : Fin 512) :
    ((cfg0.win 18).blk t).view.emb (ix2 p q) = ix2 (row t p) q := by
  obtain ⟨e0, e1⟩ := idx18 t
  funext a; apply Fin.ext
  match a with
  | ⟨0, _⟩ => show win0_18.index t (0 : Fin 2) * 1024 + 1 * p.val = t.val * 1024 + p.val; rw [e0]; omega
  | ⟨1, _⟩ => show win0_18.index t (1 : Fin 2) * 512 + 1 * q.val = q.val; rw [e1]; omega

/-- An index of window 18's array is in point t's block iff each coordinate is in the block's range. -/
theorem mem_blk18 (t : Fin cfg0.N) (i : S16384x512.Idx) :
    i ∈ ((cfg0.win 18).blk t).view.set ↔ ∀ a : Fin 2, win0_18.index t a * S1024x512.size a ≤ (i a).val ∧ (i a).val < win0_18.index t a * S1024x512.size a + S1024x512.size a := by
  show i ∈ ((View.whole main_v18_1).slice (win0_18.rect t)).set ↔ _
  rw [View.set_slice_whole, Rect.mem_set_unit]
  exact Iff.rfl

/-- Every index of window 18's array is in the block of the point its row falls in. -/
theorem cover18 (i : S16384x512.Idx) :
    ∃ t : Fin cfg0.N, (cfg0.win 18).flush t = true ∧ i ∈ ((cfg0.win 18).blk t).view.set := by
  have hi0 : (i 0).val < 16384 := (i 0).isLt
  have hi1 : (i 1).val < 512 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨e0, e1⟩ := idx18 t
  refine ⟨t, flush0_18 t, ?_⟩
  rw [mem_blk18]
  intro a
  match a with
  | ⟨0, _⟩ => show win0_18.index t (0 : Fin 2) * 1024 ≤ (i 0).val ∧ (i 0).val < win0_18.index t (0 : Fin 2) * 1024 + 1024; rw [e0]; omega
  | ⟨1, _⟩ => show win0_18.index t (1 : Fin 2) * 512 ≤ (i 1).val ∧ (i 1).val < win0_18.index t (1 : Fin 2) * 512 + 512; rw [e1]; omega

/-- Entry (p, q) of window 19's block at point t is entry (t·1024 + p, q) of its array. -/
theorem emb19 (t : Fin cfg0.N) (p : Fin 1024) (q : Fin 512) :
    ((cfg0.win 19).blk t).view.emb (ix2 p q) = ix2 (row t p) q := by
  obtain ⟨e0, e1⟩ := idx19 t
  funext a; apply Fin.ext
  match a with
  | ⟨0, _⟩ => show win0_19.index t (0 : Fin 2) * 1024 + 1 * p.val = t.val * 1024 + p.val; rw [e0]; omega
  | ⟨1, _⟩ => show win0_19.index t (1 : Fin 2) * 512 + 1 * q.val = q.val; rw [e1]; omega

/-- An index of window 19's array is in point t's block iff each coordinate is in the block's range. -/
theorem mem_blk19 (t : Fin cfg0.N) (i : S16384x512.Idx) :
    i ∈ ((cfg0.win 19).blk t).view.set ↔ ∀ a : Fin 2, win0_19.index t a * S1024x512.size a ≤ (i a).val ∧ (i a).val < win0_19.index t a * S1024x512.size a + S1024x512.size a := by
  show i ∈ ((View.whole main_v18_2).slice (win0_19.rect t)).set ↔ _
  rw [View.set_slice_whole, Rect.mem_set_unit]
  exact Iff.rfl

/-- Every index of window 19's array is in the block of the point its row falls in. -/
theorem cover19 (i : S16384x512.Idx) :
    ∃ t : Fin cfg0.N, (cfg0.win 19).flush t = true ∧ i ∈ ((cfg0.win 19).blk t).view.set := by
  have hi0 : (i 0).val < 16384 := (i 0).isLt
  have hi1 : (i 1).val < 512 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨e0, e1⟩ := idx19 t
  refine ⟨t, flush0_19 t, ?_⟩
  rw [mem_blk19]
  intro a
  match a with
  | ⟨0, _⟩ => show win0_19.index t (0 : Fin 2) * 1024 ≤ (i 0).val ∧ (i 0).val < win0_19.index t (0 : Fin 2) * 1024 + 1024; rw [e0]; omega
  | ⟨1, _⟩ => show win0_19.index t (1 : Fin 2) * 512 ≤ (i 1).val ∧ (i 1).val < win0_19.index t (1 : Fin 2) * 512 + 512; rw [e1]; omega

/-- Entry (p, q) of window 20's block at point t is entry (t·1024 + p, q) of its array. -/
theorem emb20 (t : Fin cfg0.N) (p : Fin 1024) (q : Fin 256) :
    ((cfg0.win 20).blk t).view.emb (ix2 p q) = ix2 (row t p) q := by
  obtain ⟨e0, e1⟩ := idx20 t
  funext a; apply Fin.ext
  match a with
  | ⟨0, _⟩ => show win0_20.index t (0 : Fin 2) * 1024 + 1 * p.val = t.val * 1024 + p.val; rw [e0]; omega
  | ⟨1, _⟩ => show win0_20.index t (1 : Fin 2) * 256 + 1 * q.val = q.val; rw [e1]; omega

/-- An index of window 20's array is in point t's block iff each coordinate is in the block's range. -/
theorem mem_blk20 (t : Fin cfg0.N) (i : S16384x256.Idx) :
    i ∈ ((cfg0.win 20).blk t).view.set ↔ ∀ a : Fin 2, win0_20.index t a * S1024x256.size a ≤ (i a).val ∧ (i a).val < win0_20.index t a * S1024x256.size a + S1024x256.size a := by
  show i ∈ ((View.whole main_v18_3).slice (win0_20.rect t)).set ↔ _
  rw [View.set_slice_whole, Rect.mem_set_unit]
  exact Iff.rfl

/-- Every index of window 20's array is in the block of the point its row falls in. -/
theorem cover20 (i : S16384x256.Idx) :
    ∃ t : Fin cfg0.N, (cfg0.win 20).flush t = true ∧ i ∈ ((cfg0.win 20).blk t).view.set := by
  have hi0 : (i 0).val < 16384 := (i 0).isLt
  have hi1 : (i 1).val < 256 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨e0, e1⟩ := idx20 t
  refine ⟨t, flush0_20 t, ?_⟩
  rw [mem_blk20]
  intro a
  match a with
  | ⟨0, _⟩ => show win0_20.index t (0 : Fin 2) * 1024 ≤ (i 0).val ∧ (i 0).val < win0_20.index t (0 : Fin 2) * 1024 + 1024; rw [e0]; omega
  | ⟨1, _⟩ => show win0_20.index t (1 : Fin 2) * 256 ≤ (i 1).val ∧ (i 1).val < win0_20.index t (1 : Fin 2) * 256 + 256; rw [e1]; omega

end Cert.Mtrnn.K

end
-- ==== Proof.Final.lean ====
/-
  The kernel's four result arrays after the run are the cell's results of the argument arrays.

  At each of the 16 grid points the body stores, into each result window's block, the cell's result on that strip of
  1024 rows (the strips' entries are the batch arrays' rows, the weight blocks the weight matrices, the bias rows the
  summed biases); the 16 blocks tile each result array; so each array ends holding the cell's result everywhere.
-/
import proofs.«177688_j4715874091405_2_alg».proof.Proof.Gen.KernelIdeal.Value
import proofs.«177688_j4715874091405_2_alg».proof.Proof.KernelAt
import proofs.«177688_j4715874091405_2_alg».proof.Proof.Blocks

noncomputable section

namespace Cert.Mtrnn.K

open Cert.KernelIdeal Cert.KernelIdeal.Gen Cert.Mtrnn Cert.Mtrnn.KernelAt
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The zero offsets of a whole-block access, however they are spelt. -/
theorem hz : (![0, 0] : Fin 2 → Nat) = fun _ => 0 := funext fun a => by fin_cases a <;> rfl

/-! ## The cell's results of a core's argument arrays -/

/-- The step's output. -/
abbrev res17 (c : Dev nD) : Mat 16384 64 := output (a1 m c) (a20 m c) (a21 m c)
/-- The new io block. -/
abbrev res18 (c : Dev nD) : Mat 16384 512 :=
  newIo (a0 m c) (a1 m c) (a2 m c) (a18 m c) (a19 m c) (a16 m c) (a17 m c) (a4 m c) (a5 m c)
/-- The new fast block. -/
abbrev res19 (c : Dev nD) : Mat 16384 512 :=
  newFast (a1 m c) (a2 m c) (a3 m c) (a8 m c) (a9 m c) (a14 m c) (a15 m c) (a6 m c) (a7 m c)
/-- The new slow block. -/
abbrev res20 (c : Dev nD) : Mat 16384 256 := newSlow (a2 m c) (a3 m c) (a12 m c) (a13 m c) (a10 m c) (a11 m c)

/-! ## Window 17: the step's output -/

/-- What point t writes back to window 17's array is block t of the cell's result. -/
theorem flushed17_eq (c : Dev nD) (t : Fin cfg0.N) :
    (dats m 0 c).flushed 17 t = ((cfg0.win 17).blk t).view.read (Elt Ideal) (res17 m c) := by
  rw [Value.flushed17]
  unfold out0_17
  rw [View.canon_unit_zero hz]
  simp only [View.ld_unit_zero (S := S1024x512) hz, View.ld_unit_zero (S := S512x64) hz, View.ld_unit_zero (S := S1x64) hz]
  funext j
  obtain ⟨p, q, rfl⟩ : ∃ (p : Fin 1024) (q : Fin 64), j = ix2 p q := ⟨j 0, j 1, eq_ix2 j⟩
  show k0_pay1 (k0_pay14 (k0_pay6 (iblk m c 1 t)) (iblk m c 12 t)) (k0_pay15 (iblk m c 16 t)) (ix2 p q)
    = res17 m c (((cfg0.win 17).blk t).view.emb (ix2 p q))
  rw [emb17]
  exact bridge17 (iblk m c 1 t) (iblk m c 12 t) (iblk m c 16 t) (a1 m c) (a20 m c) (a21 m c) (row t p) p q (blk1 m c t p) (blk12 m c t) (blk16 m c t)

/-- The 16 blocks tile the array, so it ends holding the cell's result. -/
theorem final17 (c : Dev nD) : (dats m 0 c).arrAt 17 cfg0.N = res17 m c :=
  (dats m 0 c).arrAt_eq_of_cover 17 (res17 m c) (fun t _ => flushed17_eq m c t) cover17

/-! ## Window 18: the new io block -/

/-- What point t writes back to window 18's array is block t of the cell's result. -/
theorem flushed18_eq (c : Dev nD) (t : Fin cfg0.N) :
    (dats m 0 c).flushed 18 t = ((cfg0.win 18).blk t).view.read (Elt Ideal) (res18 m c) := by
  rw [Value.flushed18]
  unfold out0_18
  rw [View.canon_unit_zero hz]
  simp only [View.ld_unit_zero (S := S1024x64) hz, View.ld_unit_zero (S := S1024x512) hz, View.ld_unit_zero (S := S512x512) hz, View.ld_unit_zero (S := S64x512) hz, View.ld_unit_zero (S := S1x512) hz]
  funext j
  obtain ⟨p, q, rfl⟩ : ∃ (p : Fin 1024) (q : Fin 512), j = ix2 p q := ⟨j 0, j 1, eq_ix2 j⟩
  show k0_pay2 (k0_pay13 (iblk m c 1 t) (k0_pay5 (iblk m c 0 t)) (k0_pay6 (iblk m c 1 t)) (k0_pay7 (iblk m c 2 t)) (iblk m c 9 t) (iblk m c 10 t) (iblk m c 11 t) (iblk m c 15 t)) (ix2 p q)
    = res18 m c (((cfg0.win 18).blk t).view.emb (ix2 p q))
  rw [emb18]
  exact bridge18 (iblk m c 0 t) (iblk m c 1 t) (iblk m c 2 t) (iblk m c 9 t) (iblk m c 10 t) (iblk m c 11 t) (iblk m c 15 t) (a0 m c) (a1 m c) (a2 m c) (a18 m c) (a19 m c) (a16 m c) (a17 m c) (a4 m c) (a5 m c) (row t p) p q (blk0 m c t p) (blk1 m c t p) (blk2 m c t p) (blk9 m c t) (blk10 m c t) (blk11 m c t) (blk15 m c t)

/-- The 16 blocks tile the array, so it ends holding the cell's result. -/
theorem final18 (c : Dev nD) : (dats m 0 c).arrAt 18 cfg0.N = res18 m c :=
  (dats m 0 c).arrAt_eq_of_cover 18 (res18 m c) (fun t _ => flushed18_eq m c t) cover18

/-! ## Window 19: the new fast block -/

/-- What point t writes back to window 19's array is block t of the cell's result. -/
theorem flushed19_eq (c : Dev nD) (t : Fin cfg0.N) :
    (dats m 0 c).flushed 19 t = ((cfg0.win 19).blk t).view.read (Elt Ideal) (res19 m c) := by
  rw [Value.flushed19]
  unfold out0_19
  rw [View.canon_unit_zero hz]
  simp only [View.ld_unit_zero (S := S1024x512) hz, View.ld_unit_zero (S := S1024x256) hz, View.ld_unit_zero (S := S512x512) hz, View.ld_unit_zero (S := S256x512) hz, View.ld_unit_zero (S := S1x512) hz]
  funext j
  obtain ⟨p, q, rfl⟩ : ∃ (p : Fin 1024) (q : Fin 512), j = ix2 p q := ⟨j 0, j 1, eq_ix2 j⟩
  show k0_pay3 (k0_pay9 (iblk m c 1 t) (iblk m c 2 t) (iblk m c 3 t) (iblk m c 4 t) (iblk m c 5 t) (iblk m c 6 t) (iblk m c 13 t)) (ix2 p q)
    = res19 m c (((cfg0.win 19).blk t).view.emb (ix2 p q))
  rw [emb19]
  exact bridge19 (iblk m c 1 t) (iblk m c 2 t) (iblk m c 3 t) (iblk m c 4 t) (iblk m c 5 t) (iblk m c 6 t) (iblk m c 13 t) (a1 m c) (a2 m c) (a3 m c) (a8 m c) (a9 m c) (a14 m c) (a15 m c) (a6 m c) (a7 m c) (row t p) p q (blk1 m c t p) (blk2 m c t p) (blk3 m c t p) (blk4 m c t) (blk5 m c t) (blk6 m c t) (blk13 m c t)

/-- The 16 blocks tile the array, so it ends holding the cell's result. -/
theorem final19 (c : Dev nD) : (dats m 0 c).arrAt 19 cfg0.N = res19 m c :=
  (dats m 0 c).arrAt_eq_of_cover 19 (res19 m c) (fun t _ => flushed19_eq m c t) cover19

/-! ## Window 20: the new slow block -/

/-- What point t writes back to window 20's array is block t of the cell's result. -/
theorem flushed20_eq (c : Dev nD) (t : Fin cfg0.N) :
    (dats m 0 c).flushed 20 t = ((cfg0.win 20).blk t).view.read (Elt Ideal) (res20 m c) := by
  rw [Value.flushed20]
  unfold out0_20
  rw [View.canon_unit_zero hz]
  simp only [View.ld_unit_zero (S := S1024x256) hz, View.ld_unit_zero (S := S1024x512) hz, View.ld_unit_zero (S := S256x256) hz, View.ld_unit_zero (S := S512x256) hz, View.ld_unit_zero (S := S1x256) hz]
  funext j
  obtain ⟨p, q, rfl⟩ : ∃ (p : Fin 1024) (q : Fin 256), j = ix2 p q := ⟨j 0, j 1, eq_ix2 j⟩
  show k0_pay4 (k0_pay12 (iblk m c 3 t) (k0_pay7 (iblk m c 2 t)) (k0_pay10 (iblk m c 3 t) (iblk m c 7 t)) (k0_pay11 (iblk m c 8 t)) (iblk m c 14 t)) (ix2 p q)
    = res20 m c (((cfg0.win 20).blk t).view.emb (ix2 p q))
  rw [emb20]
  exact bridge20 (iblk m c 2 t) (iblk m c 3 t) (iblk m c 7 t) (iblk m c 8 t) (iblk m c 14 t) (a2 m c) (a3 m c) (a12 m c) (a13 m c) (a10 m c) (a11 m c) (row t p) p q (blk2 m c t p) (blk3 m c t p) (blk7 m c t) (blk8 m c t) (blk14 m c t)

/-- The 16 blocks tile the array, so it ends holding the cell's result. -/
theorem final20 (c : Dev nD) : (dats m 0 c).arrAt 20 cfg0.N = res20 m c :=
  (dats m 0 c).arrAt_eq_of_cover 20 (res20 m c) (fun t _ => flushed20_eq m c t) cover20

/-! ## The run, read -/

/-- Every weakly fair run of the kernel's program ends with its four result arrays at the cell's results of the
    argument arrays, and the arguments unchanged. -/
theorem run : θ_run defs (onTc (τ := τ) (main (F := Ideal))) ⟨m, fun _ => 0, ρ⟩ fun r => ∀ c : Dev nD,
      r.2.mem ((c : Thread nD τ).loc main_v18_0) = res17 m c
      ∧ r.2.mem ((c : Thread nD τ).loc main_v18_1) = res18 m c
      ∧ r.2.mem ((c : Thread nD τ).loc main_v18_2) = res19 m c
      ∧ r.2.mem ((c : Thread nD τ).loc main_v18_3) = res20 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(h c).1.trans (final17 m c), (h c).2.1.trans (final18 m c),
      (h c).2.2.1.trans (final19 m c), (h c).2.2.2.1.trans (final20 m c), (h c).2.2.2.2⟩)
    (Value.run_blocks m ρ)

end Cert.Mtrnn.K

end
-- ==== Proof.RefAt.lean ====
/-
  The reference's four results are the cell's results, entry by entry.

  The host computes each affine map as a dot_general plus its own bias spread over the batch, adds the affine maps of
  a block's drive pair by pair, and applies the leaky update with the two constants as rank-0 arrays spread over the
  block: exactly the cell's formulas (Spec), read at (r, q).
-/
import proofs.«177688_j4715874091405_2_alg».proof.Proof.Gen.ReferenceIdeal.Run
import proofs.«177688_j4715874091405_2_alg».proof.Proof.LibLeakyCell
import proofs.«177688_j4715874091405_2_alg».proof.Proof.Spec

noncomputable section

namespace Cert.Mtrnn.RefAt

open Cert.ReferenceIdeal Cert.ReferenceIdeal.Gen
open Idealize.ShloMosaic Idealize.ShloMosaic.ValueIdx Idealize.ShloMosaic.LeakyCell Cert.Mtrnn

/-- The reference's output is the cell's output. -/
theorem ref_output (x1 : FVec Ideal S16384x512 .f32) (x20 : FVec Ideal S512x64 .f32) (x21 : FVec Ideal S64 .f32) :
    Host.tanh (addf (Host.dotGeneral dot_S16384x512_S512x64_S16384x64_1_0_0_1_n_n none (x1) (x20)) (broadcastInDim S16384x64 ![0, 1] bcast_S1x64_S16384x64_0_1 (broadcastInDim S1x64 ![1] bcast_S64_S1x64_1 (x21))))
      = output x1 x20 x21 := by
  funext i
  obtain ⟨r, q, rfl⟩ : ∃ (r : Fin 16384) (q : Fin 64), i = ix2 r q := ⟨i 0, i 1, eq_ix2 i⟩
  exact (hostTanh_apply _ (ix2 r q)).trans (congrArg Ideal.tanh
    (hostAff_apply (M := 16384) (K := 512) (N := 64) x1 x20 x21 bcast_S64_S1x64_1 bcast_S1x64_S16384x64_0_1 r q))

/-- The reference's new io block is the cell's. -/
theorem ref_newIo (x0 : FVec Ideal S16384x64 .f32) (x1 x2 : FVec Ideal S16384x512 .f32) (x4 : FVec Ideal S64x512 .f32)
    (x5 : FVec Ideal S512 .f32) (x16 : FVec Ideal S512x512 .f32) (x17 : FVec Ideal S512 .f32)
    (x18 : FVec Ideal S512x512 .f32) (x19 : FVec Ideal S512 .f32) :
    Host.tanh (addf (mulf (broadcastInDim S16384x512 ![] bcast_S_S16384x512 (constant S_ .f32 0x3F000000#32)) (x1)) (Host.divf (addf (addf (addf (Host.dotGeneral dot_S16384x512_S512x512_S16384x512_1_0_0_1_n_n none (x1) (x18)) (broadcastInDim S16384x512 ![0, 1] bcast_S1x512_S16384x512_0_1 (broadcastInDim S1x512 ![1] bcast_S512_S1x512_1 (x19)))) (addf (Host.dotGeneral dot_S16384x512_S512x512_S16384x512_1_0_0_1_n_n none (x2) (x16)) (broadcastInDim S16384x512 ![0, 1] bcast_S1x512_S16384x512_0_1 (broadcastInDim S1x512 ![1] bcast_S512_S1x512_1 (x17))))) (addf (Host.dotGeneral dot_S16384x64_S64x512_S16384x512_1_0_0_1_n_n none (x0) (x4)) (broadcastInDim S16384x512 ![0, 1] bcast_S1x512_S16384x512_0_1 (broadcastInDim S1x512 ![1] bcast_S512_S1x512_1 (x5))))) (broadcastInDim S16384x512 ![] bcast_S_S16384x512 (constant S_ .f32 0x40000000#32))))
      = newIo x0 x1 x2 x18 x19 x16 x17 x4 x5 := by
  funext i
  obtain ⟨r, q, rfl⟩ : ∃ (r : Fin 16384) (q : Fin 512), i = ix2 r q := ⟨i 0, i 1, eq_ix2 i⟩
  exact (hostLeak_apply 0x3F000000#32 0x40000000#32 bcast_S_S16384x512 x1 _ (ix2 r q)).trans
    (congrArg (leak _ _ _) (congrArg₂ (· + ·) (congrArg₂ (· + ·)
      (hostAff_apply (M := 16384) (K := 512) (N := 512) x1 x18 x19 bcast_S512_S1x512_1 bcast_S1x512_S16384x512_0_1 r q)
      (hostAff_apply (M := 16384) (K := 512) (N := 512) x2 x16 x17 bcast_S512_S1x512_1 bcast_S1x512_S16384x512_0_1 r q))
      (hostAff_apply (M := 16384) (K := 64) (N := 512) x0 x4 x5 bcast_S512_S1x512_1 bcast_S1x512_S16384x512_0_1 r q)))

/-- The reference's new fast block is the cell's. -/
theorem ref_newFast (x1 x2 : FVec Ideal S16384x512 .f32) (x3 : FVec Ideal S16384x256 .f32) (x6 : FVec Ideal S512x512 .f32)
    (x7 : FVec Ideal S512 .f32) (x8 : FVec Ideal S512x512 .f32) (x9 : FVec Ideal S512 .f32)
    (x14 : FVec Ideal S256x512 .f32) (x15 : FVec Ideal S512 .f32) :
    Host.tanh (addf (mulf (broadcastInDim S16384x512 ![] bcast_S_S16384x512 (constant S_ .f32 0x3F4CCCCD#32)) (x2)) (Host.divf (addf (addf (addf (Host.dotGeneral dot_S16384x512_S512x512_S16384x512_1_0_0_1_n_n none (x2) (x8)) (broadcastInDim S16384x512 ![0, 1] bcast_S1x512_S16384x512_0_1 (broadcastInDim S1x512 ![1] bcast_S512_S1x512_1 (x9)))) (addf (Host.dotGeneral dot_S16384x256_S256x512_S16384x512_1_0_0_1_n_n none (x3) (x14)) (broadcastInDim S16384x512 ![0, 1] bcast_S1x512_S16384x512_0_1 (broadcastInDim S1x512 ![1] bcast_S512_S1x512_1 (x15))))) (addf (Host.dotGeneral dot_S16384x512_S512x512_S16384x512_1_0_0_1_n_n none (x1) (x6)) (broadcastInDim S16384x512 ![0, 1] bcast_S1x512_S16384x512_0_1 (broadcastInDim S1x512 ![1] bcast_S512_S1x512_1 (x7))))) (broadcastInDim S16384x512 ![] bcast_S_S16384x512 (constant S_ .f32 0x40A00000#32))))
      = newFast x1 x2 x3 x8 x9 x14 x15 x6 x7 := by
  funext i
  obtain ⟨r, q, rfl⟩ : ∃ (r : Fin 16384) (q : Fin 512), i = ix2 r q := ⟨i 0, i 1, eq_ix2 i⟩
  exact (hostLeak_apply 0x3F4CCCCD#32 0x40A00000#32 bcast_S_S16384x512 x2 _ (ix2 r q)).trans
    (congrArg (leak _ _ _) (congrArg₂ (· + ·) (congrArg₂ (· + ·)
      (hostAff_apply (M := 16384) (K := 512) (N := 512) x2 x8 x9 bcast_S512_S1x512_1 bcast_S1x512_S16384x512_0_1 r q)
      (hostAff_apply (M := 16384) (K := 256) (N := 512) x3 x14 x15 bcast_S512_S1x512_1 bcast_S1x512_S16384x512_0_1 r q))
      (hostAff_apply (M := 16384) (K := 512) (N := 512) x1 x6 x7 bcast_S512_S1x512_1 bcast_S1x512_S16384x512_0_1 r q)))

/-- The reference's new slow block is the cell's. -/
theorem ref_newSlow (x2 : FVec Ideal S16384x512 .f32) (x3 : FVec Ideal S16384x256 .f32) (x10 : FVec Ideal S512x256 .f32)
    (x11 : FVec Ideal S256 .f32) (x12 : FVec Ideal S256x256 .f32) (x13 : FVec Ideal S256 .f32) :
    Host.tanh (addf (mulf (broadcastInDim S16384x256 ![] bcast_S_S16384x256 (constant S_ .f32 0x3F7C57C5#32)) (x3)) (Host.divf (addf (addf (Host.dotGeneral dot_S16384x256_S256x256_S16384x256_1_0_0_1_n_n none (x3) (x12)) (broadcastInDim S16384x256 ![0, 1] bcast_S1x256_S16384x256_0_1 (broadcastInDim S1x256 ![1] bcast_S256_S1x256_1 (x13)))) (addf (Host.dotGeneral dot_S16384x512_S512x256_S16384x256_1_0_0_1_n_n none (x2) (x10)) (broadcastInDim S16384x256 ![0, 1] bcast_S1x256_S16384x256_0_1 (broadcastInDim S1x256 ![1] bcast_S256_S1x256_1 (x11))))) (broadcastInDim S16384x256 ![] bcast_S_S16384x256 (constant S_ .f32 0x428C0000#32))))
      = newSlow x2 x3 x12 x13 x10 x11 := by
  funext i
  obtain ⟨r, q, rfl⟩ : ∃ (r : Fin 16384) (q : Fin 256), i = ix2 r q := ⟨i 0, i 1, eq_ix2 i⟩
  exact (hostLeak_apply 0x3F7C57C5#32 0x428C0000#32 bcast_S_S16384x256 x3 _ (ix2 r q)).trans
    (congrArg (leak _ _ _) (congrArg₂ (· + ·)
      (hostAff_apply (M := 16384) (K := 256) (N := 256) x3 x12 x13 bcast_S256_S1x256_1 bcast_S1x256_S16384x256_0_1 r q)
      (hostAff_apply (M := 16384) (K := 512) (N := 256) x2 x10 x11 bcast_S256_S1x256_1 bcast_S1x256_S16384x256_0_1 r q)))

end Cert.Mtrnn.RefAt

end
-- ==== Proof.lean ====
/-
  The kernel computes one step of a multiple-timescale recurrent cell on a batch of 16384 rows, a strip of 1024 rows
  per grid point: for each of the io, fast and slow blocks it adds the products of the strips that drive the block
  with their weight matrices (narrowed to bf16), adds ONE row holding the sum of the block's biases, and applies the
  leaky update tanh (c · old + drive / τ); the output is tanh of one affine map of the old io block. The reference
  forms each affine map with its own bias and adds the affine maps.

  On the extended reals the narrowing is the identity, a product of a strip is that strip of the whole product, and
  the two groupings of a drive's products and biases are equal by commutativity and associativity of addition, which
  hold at the infinities too: the precondition is never opened.

  The three frames are the generated ones (the reference's is its generated run with the results dropped); the
  idealization rewrote nothing, so there is nothing to preserve; the value claim sets the kernel's run (Final) beside the
  reference's run (RefAt), both at the cell's four results (Spec).
-/
import proofs.«177688_j4715874091405_2_alg».proof.Defs
import proofs.«177688_j4715874091405_2_alg».proof.Proof.Gen.Kernel
import proofs.«177688_j4715874091405_2_alg».proof.Proof.Gen.Kernel.Skeleton
import proofs.«177688_j4715874091405_2_alg».proof.Proof.Gen.Kernel.Launch
import proofs.«177688_j4715874091405_2_alg».proof.Proof.Gen.Kernel.Points
import proofs.«177688_j4715874091405_2_alg».proof.Proof.Gen.Kernel.Frame
import proofs.«177688_j4715874091405_2_alg».proof.Proof.Gen.KernelIdeal
import proofs.«177688_j4715874091405_2_alg».proof.Proof.Gen.KernelIdeal.Skeleton
import proofs.«177688_j4715874091405_2_alg».proof.Proof.Gen.KernelIdeal.Launch
import proofs.«177688_j4715874091405_2_alg».proof.Proof.Gen.KernelIdeal.Points
import proofs.«177688_j4715874091405_2_alg».proof.Proof.Gen.KernelIdeal.Frame
import proofs.«177688_j4715874091405_2_alg».proof.Proof.Gen.ReferenceIdeal
import proofs.«177688_j4715874091405_2_alg».proof.Proof.Gen.Pre_finite_inputs
import proofs.«177688_j4715874091405_2_alg».proof.Proof.Gen.KernelIdeal.Value
import proofs.«177688_j4715874091405_2_alg».proof.Proof.Gen.ReferenceIdeal.Run
import proofs.«177688_j4715874091405_2_alg».proof.Proof.Final
import proofs.«177688_j4715874091405_2_alg».proof.Proof.RefAt
import Idealize.ShloMosaic.Adequacy
import Idealize.ShloMosaic.Init

noncomputable section

namespace Cert.Proof

open Idealize.ShloMosaic Idealize.ShloMosaic.TcCoe Idealize.SL.Sem

namespace Claims

/-- The kernel as printed runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, the four results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- The idealization rewrote nothing, so the claim is `True`. -/
theorem preserves : Cert.preserves_Kernel_KernelIdeal := trivial

/-- From memories agreeing on the arguments both programs end with the cell's four results of those arguments. -/
theorem algebraic : Cert.algebraic_KernelIdeal_ReferenceIdeal := by
  intro m ρ m' ρ' _ hagree
  refine ⟨fun c => Cert.Mtrnn.K.res17 m c, fun c => Cert.Mtrnn.K.res18 m c, fun c => Cert.Mtrnn.K.res19 m c,
    fun c => Cert.Mtrnn.K.res20 m c, Cert.Mtrnn.K.run m ρ, ?_⟩
  refine (θ_run Cert.ReferenceIdeal.defs _ _).mono (fun _ h c => ?_)
    (Cert.ReferenceIdeal.Value.run (F := Ideal) m' ρ')
  obtain ⟨g0, g1, g2, g3, g4, g5, g6, g7, g8, g9, g10, g11, g12, g13, g14, g15, g16, g17, g18, g19, g20, g21⟩ := hagree c
  obtain ⟨r0, r1, r2, r3, rest⟩ := h c
  refine ⟨r0.trans ?_, r1.trans ?_, r2.trans ?_, r3.trans ?_, rest⟩
  · rw [g1, g20, g21]
    exact Cert.Mtrnn.RefAt.ref_output _ _ _
  · rw [g0, g1, g2, g4, g5, g16, g17, g18, g19]
    exact Cert.Mtrnn.RefAt.ref_newIo _ _ _ _ _ _ _ _ _
  · rw [g1, g2, g3, g6, g7, g8, g9, g14, g15]
    exact Cert.Mtrnn.RefAt.ref_newFast _ _ _ _ _ _ _ _ _
  · rw [g2, g3, g10, g11, g12, g13]
    exact Cert.Mtrnn.RefAt.ref_newSlow _ _ _ _ _ _

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
